-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 149
  | .vmem => 30
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S50000x128, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S850000, .f32⟩
  | 90 => ⟨S850000x1, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x128, .f32⟩
  | 100 => ⟨S850000x128, .f32⟩
  | 101 => ⟨S850000x128, .f32⟩
  | 102 => ⟨S_, .f32⟩
  | 103 => ⟨S50000x128, .f32⟩
  | 104 => ⟨S850000x1, .i32⟩
  | 105 => ⟨S50000x128, .f32⟩
  | 106 => ⟨S1x128, .f32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000, .f32⟩
  | 2 => ⟨S850000, .f32⟩
  | 3 => ⟨S850000x1, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000x128, .f32⟩
  | 13 => ⟨S850000x128, .f32⟩
  | 14 => ⟨S850000x128, .f32⟩
  | 15 => ⟨S_, .f32⟩
  | 16 => ⟨S50000x128, .f32⟩
  | 17 => ⟨S850000x1, .i32⟩
  | 18 => ⟨S50000x128, .f32⟩
  | 19 => ⟨S1x128, .f32⟩
  | 20 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_call2_cst : Ref sig .tc := ⟨.hbm, 108, rfl⟩
abbrev main_call2_v0 : Ref sig .tc := ⟨.hbm, 109, rfl⟩
abbrev main_v78 : Ref sig .tc := ⟨.hbm, 110, rfl⟩
abbrev main_v79 : Ref sig .tc := ⟨.hbm, 111, rfl⟩
abbrev main_c_16 : Ref sig .tc := ⟨.hbm, 112, rfl⟩
abbrev main_v80 : Ref sig .tc := ⟨.hbm, 113, rfl⟩
abbrev main_v81 : Ref sig .tc := ⟨.hbm, 114, rfl⟩
abbrev main_c_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_18 : Ref sig .tc := ⟨.hbm, 121, rfl⟩
abbrev main_v87 : Ref sig .tc := ⟨.hbm, 122, rfl⟩
abbrev main_v88 : Ref sig .tc := ⟨.hbm, 123, rfl⟩
abbrev main_c_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_20 : Ref sig .tc := ⟨.hbm, 132, rfl⟩
abbrev main_v96 : Ref sig .tc := ⟨.hbm, 133, rfl⟩
abbrev main_v97 : Ref sig .tc := ⟨.hbm, 134, rfl⟩
abbrev main_c_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_22 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v107) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v109) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S50000x128, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S850000x1, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x128, .f32⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000, .f32⟩
  | 4 => ⟨S850000, .f32⟩
  | 5 => ⟨S850000x1, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .f32⟩
  | 15 => ⟨S850000x128, .f32⟩
  | 16 => ⟨S850000x128, .f32⟩
  | 17 => ⟨S_, .f32⟩
  | 18 => ⟨S50000x128, .f32⟩
  | 19 => ⟨S850000x1, .i32⟩
  | 20 => ⟨S50000x128, .f32⟩
  | 21 => ⟨S1x128, .f32⟩
  | 22 => ⟨S50000x128, .f32⟩
  | 23 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_20 : Ref sig .tc := ⟨.hbm, 134, rfl⟩
abbrev main_v98 : Ref sig .tc := ⟨.hbm, 135, rfl⟩
abbrev main_v99 : Ref sig .tc := ⟨.hbm, 136, rfl⟩
abbrev main_c_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«157134_j64020782514491_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«157134_j64020782514491_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.LibHostRow.lean ====
/-
  A bias vector on the host, read at an entry, for any sizes and element type: a one-row matrix [1, b] repeated down
  a rows by broadcast_in_dim (dims [0, 1]) reads at (p, c) the row's entry c; a length-b vector laid as a [1, b] row by
  broadcast_in_dim (dims [1]) reads at (u, c) the vector's entry c; and a length-b vector CAST (reshaped) to a [1, b]
  row is that same row, so a kernel fed `b.reshape(1, d)` and a reference that broadcasts `b` see one array.
-/
import Idealize.ShloMosaic.Lib.Pipeline.Value
import Idealize.ShloMosaic.Lib.ValueIdx
import Idealize.ShloMosaic.Lib.ValueLayout

namespace Cert.LibHostRow

open Idealize.ShloMosaic Idealize.ShloMosaic.ValueIdx

variable {α : Type}

/-- A `[1, b]` array repeated down `a` rows by the host reads, at `(p, c)`, the one row at `c`. -/
theorem bcastRows_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector laid as a `[1, b]` row by the host reads, at `(u, c)`, the vector's entry `c`. -/
theorem bcastRow_apply {b : ℕ} (v : (⟨1, ![b]⟩ : Shape).Idx → α)
    (h : (⟨1, ![b]⟩ : Shape).BroadcastsInDim ⟨2, ![1, b]⟩ (![1] : Fin 1 → Fin 2))
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A length-`b` vector cast to a `[1, b]` row is the host's laying of it as a row: both read the vector's entry in
    that column. -/
theorem castRow_eq_bcastRow {b : ℕ} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ v h = broadcastInDim ⟨2, ![1, b]⟩ ![1] h' v := by
  funext j
  obtain ⟨u, c, rfl⟩ : ∃ (u : Fin 1) (c : Fin b), j = ix2 u c := ⟨j 0, j 1, eq_ix2 j⟩
  rw [shapeCast_a_1a_apply, bcastRow_apply]

end Cert.LibHostRow
-- ==== Proof.Net.lean ====
/-
  The network both programs compute, as functions of whole arrays over the extended reals.
  A graph on 50000 nodes is given by 800000 directed edges (a source row and a target row of node numbers); every node
  also gets a loop to itself, so there are 850000 edges in all: `src` and `dst` list their ends. The degree of a node is
  the number of edges that end in it, `dinv` is its inverse square root where the degree is positive and 0 elsewhere.
  One layer maps node features h (50000 x 128) to  A (h W) + b : the dense product `lin h W`, then for every edge
  e the row of its source scaled by dinv(src e) * dinv(dst e) is added into the row of its target (`agg`), then the
  bias row b is added to every row (`bias`). The network is three layers with max(., 0) between them.
  The host's own dense product and its own way of adding the bias (lay b as a 1 x 128 row, repeat it down the rows,
  add) are these functions: `hostDot_eq_lin`, `hostBias_eq_bias`; and a bias handed over as a 1 x 128 row that is a
  cast of b is the same addition: `biasRow_cast`.
-/
import proofs.«157134_j64020782514491_1_alg».proof.ReferenceIdeal
import proofs.«157134_j64020782514491_1_alg».proof.Proof.Gen.ReferenceIdeal
import proofs.«157134_j64020782514491_1_alg».proof.Proof.LibMatmulSum
import proofs.«157134_j64020782514491_1_alg».proof.Proof.LibPlainLists
import proofs.«157134_j64020782514491_1_alg».proof.Proof.LibHostDotSum
import proofs.«157134_j64020782514491_1_alg».proof.Proof.LibHostRow
import Idealize.ShloMosaic.PureOps.Ideal
import Idealize.ShloMosaic.Lib.ValueIdx
import Idealize.ShloMosaic.Lib.ValueLayout

noncomputable section

namespace Cert.Net

open Idealize.ShloMosaic Idealize.ShloMosaic.ValueIdx Cert.ReferenceIdeal Cert.ReferenceIdeal.Gen

/-- The sources of the 850000 edges: row 0 of the edge table, then every node once (its loop). -/
def src (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The targets of the 850000 edges: row 1 of the edge table, then every node once. -/
def dst (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- A node's degree: one added per edge that ends in it. -/
def deg (d : IVec S850000 32) : FVec Ideal S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 d) (broadcastInDim S850000 ![] bcast_S_S850000 (constant S_ .f32 0x3F800000#32))

/-- deg^(-1/2) where the degree is positive, 0 elsewhere. -/
def dinv (d : IVec S850000 32) : FVec Ideal S50000 .f32 :=
  select (cmpf .ogt (deg d) (broadcastInDim S50000 ![] bcast_S_S50000 (constant S_ .f32 0x00000000#32))) (Host.rsqrt (deg d))
    (broadcastInDim S50000 ![] bcast_S_S50000 (constant S_ .f32 0x00000000#32))

/-- A node number read as a row: a negative one counts from the end. -/
def wrap (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- The weight of edge e: dinv(src e) * dinv(dst e). -/
def coef (s d : IVec S850000 32) (dv : FVec Ideal S50000 .f32) : FVec Ideal S850000 .f32 :=
  mulf (Host.gather gather_S50000_S850000x1_S850000_n_0_n_n_0_1_1 dv (broadcastInDim S850000x1 ![0] bcast_S850000_S850000x1_0 (wrap s)))
    (Host.gather gather_S50000_S850000x1_S850000_n_0_n_n_0_1_1 dv (broadcastInDim S850000x1 ![0] bcast_S850000_S850000x1_0 (wrap d)))

/-- Aggregation: into row n, the sum over the edges e that end in n of weight(e) * (row src e of h). -/
def agg (s d : IVec S850000 32) (dv : FVec Ideal S50000 .f32) (h : FVec Ideal S50000x128 .f32) : FVec Ideal S50000x128 .f32 :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 d)
    (mulf (broadcastInDim S850000x128 ![0, 1] bcast_S850000x1_S850000x128_0_1 (broadcastInDim S850000x1 ![0] bcast_S850000_S850000x1_0 (coef s d dv)))
      (Host.gather gather_S50000x128_S850000x1_S850000x128_1_0_n_n_0_1_1128 h (broadcastInDim S850000x1 ![0] bcast_S850000_S850000x1_0 (wrap s))))

/-- max(., 0), entry by entry. -/
def relu (h : FVec Ideal S50000x128 .f32) : FVec Ideal S50000x128 .f32 :=
  maximumf h (broadcastInDim S50000x128 ![] bcast_S_S50000x128 (constant S_ .f32 0x00000000#32))

/-- The dense product: entry (p, q) is the sum over k < 128 of X(p, k) * W(k, q). -/
def lin (X : FVec Ideal S50000x128 .f32) (W : FVec Ideal S128x128 .f32) : FVec Ideal S50000x128 .f32 :=
  fun i => ∑ k : Fin 128, X (ix2 (i 0) k) * W (ix2 k (i 1))

/-- The bias b(q) added to every entry of column q. -/
def bias (A : FVec Ideal S50000x128 .f32) (b : FVec Ideal S128 .f32) : FVec Ideal S50000x128 .f32 :=
  fun i => A i + b (ix1 (i 1))

/-- The same with the bias given as a 1 x 128 row. -/
def biasRow (A : FVec Ideal S50000x128 .f32) (r : FVec Ideal S1x128 .f32) : FVec Ideal S50000x128 .f32 :=
  fun i => A i + r (ix2 (0 : Fin 1) (i 1))

/-- One layer:  A (h W) + b. -/
def layer (s d : IVec S850000 32) (dv : FVec Ideal S50000 .f32) (h : FVec Ideal S50000x128 .f32) (W : FVec Ideal S128x128 .f32)
    (b : FVec Ideal S128 .f32) : FVec Ideal S50000x128 .f32 :=
  bias (agg s d dv (lin h W)) b

/-- The same layer spelt with the host's dense product and the host's bias row. -/
def layerHost (s d : IVec S850000 32) (dv : FVec Ideal S50000 .f32) (h : FVec Ideal S50000x128 .f32) (W : FVec Ideal S128x128 .f32)
    (b : FVec Ideal S128 .f32) : FVec Ideal S50000x128 .f32 :=
  addf (agg s d dv (Host.dotGeneral dot_S50000x128_S128x128_S50000x128_1_0_0_1_n_n none h W))
    (broadcastInDim S50000x128 ![0, 1] bcast_S1x128_S50000x128_0_1 (broadcastInDim S1x128 ![1] bcast_S128_S1x128_1 b))

/-- The three-layer network. -/
def net (x : FVec Ideal S50000x128 .f32) (ei : IVec S2x800000 32) (W1 : FVec Ideal S128x128 .f32) (b1 : FVec Ideal S128 .f32)
    (W2 : FVec Ideal S128x128 .f32) (b2 : FVec Ideal S128 .f32) (W3 : FVec Ideal S128x128 .f32) (b3 : FVec Ideal S128 .f32) :
    FVec Ideal S50000x128 .f32 :=
  layer (src ei) (dst ei) (dinv (dst ei))
    (relu (layer (src ei) (dst ei) (dinv (dst ei)) (relu (layer (src ei) (dst ei) (dinv (dst ei)) x W1 b1)) W2 b2)) W3 b3

theorem plainHost : Cert.LibMatmulSum.Plain dot_S50000x128_S128x128_S50000x128_1_0_0_1_n_n :=
  Cert.LibMatmulSum.Plain.of_lists _ rfl rfl rfl rfl rfl rfl

/-- The host's dense product is `lin`. -/
theorem hostDot_eq_lin (X : FVec Ideal S50000x128 .f32) (W : FVec Ideal S128x128 .f32) :
    Host.dotGeneral dot_S50000x128_S128x128_S50000x128_1_0_0_1_n_n none X W = lin X W := by
  funext i
  obtain ⟨p, q, rfl⟩ : ∃ (p : Fin 50000) (q : Fin 128), i = ix2 p q := ⟨i 0, i 1, eq_ix2 i⟩
  exact Cert.LibMatmulSum.hostDot_at plainHost none X W p q

/-- The host's way of adding a bias vector is `bias`. -/
theorem hostBias_eq_bias (A : FVec Ideal S50000x128 .f32) (b : FVec Ideal S128 .f32) :
    addf A (broadcastInDim S50000x128 ![0, 1] bcast_S1x128_S50000x128_0_1 (broadcastInDim S1x128 ![1] bcast_S128_S1x128_1 b)) = bias A b := by
  funext i
  obtain ⟨p, q, rfl⟩ : ∃ (p : Fin 50000) (q : Fin 128), i = ix2 p q := ⟨i 0, i 1, eq_ix2 i⟩
  show A (ix2 p q) + broadcastInDim S50000x128 ![0, 1] bcast_S1x128_S50000x128_0_1 (broadcastInDim S1x128 ![1] bcast_S128_S1x128_1 b) (ix2 p q) = A (ix2 p q) + b (ix1 q)
  rw [Cert.LibHostRow.bcastRows_apply, Cert.LibHostRow.bcastRow_apply]

/-- A bias row that is the vector cast to 1 x 128 adds the vector. -/
theorem biasRow_cast (A : FVec Ideal S50000x128 .f32) (b : FVec Ideal S128 .f32) (h : S128.ShapeCasts S1x128) :
    biasRow A (shapeCast S1x128 b h) = bias A b := by
  funext i
  obtain ⟨p, q, rfl⟩ : ∃ (p : Fin 50000) (q : Fin 128), i = ix2 p q := ⟨i 0, i 1, eq_ix2 i⟩
  show A (ix2 p q) + shapeCast S1x128 b h (ix2 (0 : Fin 1) q) = A (ix2 p q) + b (ix1 q)
  rw [shapeCast_a_1a_apply]

theorem layerHost_eq_layer (s d : IVec S850000 32) (dv : FVec Ideal S50000 .f32) (h : FVec Ideal S50000x128 .f32)
    (W : FVec Ideal S128x128 .f32) (b : FVec Ideal S128 .f32) : layerHost s d dv h W b = layer s d dv h W b := by
  unfold layerHost layer
  rw [hostDot_eq_lin, hostBias_eq_bias]

end Cert.Net

end
-- ==== Proof.Payload.lean ====
/-
  The arithmetic of the two kernel bodies at one entry of a block, over the extended reals.
  The dense body rounds both operands to bf16 (the identity on extended reals) and multiplies them on the matrix unit
  into a zero accumulator: entry (p, q) of the result is the sum over k < 128 of x(p, k) * w(k, q).
  The bias body repeats a 1 x 128 row down the 5000 rows of the block and adds: entry (p, q) is x(p, q) + r(0, q).
-/
import proofs.«157134_j64020782514491_1_alg».proof.Proof.Gen.KernelIdeal.Skeleton
import proofs.«157134_j64020782514491_1_alg».proof.Proof.LibMatmulSum
import proofs.«157134_j64020782514491_1_alg».proof.Proof.LibPlainLists
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen

theorem hz : (![0, 0] : Fin 2 → Nat) = fun _ => 0 := funext fun a => by fin_cases a <;> rfl

theorem plainBlock : Cert.LibMatmulSum.Plain dot_S5000x128_S128x128_S5000x128_1_0_0_1_n_n :=
  Cert.LibMatmulSum.Plain.of_lists _ rfl rfl rfl rfl rfl rfl

/-- The first dense body at entry (p, q) of its block. -/
theorem k0_pay1_at (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.LibMatmulSum.matmul_zero_at plainBlock none _ _ p q

/-- The second dense body (its left block passes through a cast to its own shape first). -/
theorem k2_pay1_at (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  refine (Cert.LibMatmulSum.matmul_zero_at plainBlock none _ _ p q).trans ?_
  refine Finset.sum_congr rfl fun k _ => ?_
  show shapeCast S5000x128 x0 shapeCasts_S5000x128_S5000x128 (ix2 p k) * x1 (ix2 k q) = _
  rw [shapeCast_self]

/-- The third dense body. -/
theorem k4_pay1_at (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  unfold k4_pay1
  refine (Cert.LibMatmulSum.matmul_zero_at plainBlock none _ _ p q).trans ?_
  refine Finset.sum_congr rfl fun k _ => ?_
  show shapeCast S5000x128 x0 shapeCasts_S5000x128_S5000x128 (ix2 p k) * x1 (ix2 k q) = _
  rw [shapeCast_self]

/-- A 1 x 128 row repeated down 5000 rows, read at (p, q), is the row's entry q. -/
theorem rowDown_apply (r : Vec Ideal S1x128 .f32) (p : Fin 5000) (q : Fin 128) :
    broadcastTo S5000x128 r broadcasts_S1x128_S5000x128 (ix2 p q) = r (ix2 (0 : Fin 1) q) := by
  refine broadcastTo_apply r broadcasts_S1x128_S5000x128 (ix2 p q) (ix2 (0 : Fin 1) q) fun a => ?_
  match a with
  | ⟨0, _⟩ => rfl
  | ⟨1, _⟩ => rfl

/-- A bias body at entry (p, q) of its block. -/
theorem k1_pay1_at (x0 : Vec Ideal S5000x128 .f32) (x1 : Vec Ideal S1x128 .f32) (p : Fin 5000) (q : Fin 128) :
    k1_pay1 x0 x1 (ix2 p q) = x0 (ix2 p q) + x1 (ix2 (0 : Fin 1) q) := by
  unfold k1_pay1
  show shapeCast S5000x128 x0 shapeCasts_S5000x128_S5000x128 (ix2 p q)
      + broadcastTo S5000x128 (shapeCast S1x128 (shapeCast S1x128 x1 shapeCasts_S1x128_S1x128) shapeCasts_S1x128_S1x128) broadcasts_S1x128_S5000x128 (ix2 p q) = _
  rw [shapeCast_self, shapeCast_self, shapeCast_self, rowDown_apply]

/-- A bias body at entry (p, q) of its block. -/
theorem k3_pay1_at (x0 : Vec Ideal S5000x128 .f32) (x1 : Vec Ideal S1x128 .f32) (p : Fin 5000) (q : Fin 128) :
    k3_pay1 x0 x1 (ix2 p q) = x0 (ix2 p q) + x1 (ix2 (0 : Fin 1) q) := by
  unfold k3_pay1
  show shapeCast S5000x128 x0 shapeCasts_S5000x128_S5000x128 (ix2 p q)
      + broadcastTo S5000x128 (shapeCast S1x128 (shapeCast S1x128 x1 shapeCasts_S1x128_S1x128) shapeCasts_S1x128_S1x128) broadcasts_S1x128_S5000x128 (ix2 p q) = _
  rw [shapeCast_self, shapeCast_self, shapeCast_self, rowDown_apply]

/-- A bias body at entry (p, q) of its block. -/
theorem k5_pay1_at (x0 : Vec Ideal S5000x128 .f32) (x1 : Vec Ideal S1x128 .f32) (p : Fin 5000) (q : Fin 128) :
    k5_pay1 x0 x1 (ix2 p q) = x0 (ix2 p q) + x1 (ix2 (0 : Fin 1) q) := by
  unfold k5_pay1
  show shapeCast S5000x128 x0 shapeCasts_S5000x128_S5000x128 (ix2 p q)
      + broadcastTo S5000x128 (shapeCast S1x128 (shapeCast S1x128 x1 shapeCasts_S1x128_S1x128) shapeCasts_S1x128_S1x128) broadcasts_S1x128_S5000x128 (ix2 p q) = _
  rw [shapeCast_self, shapeCast_self, shapeCast_self, rowDown_apply]

end Cert.KernelIdeal.Payload

end
-- ==== Proof.RegionLin.lean ====
/-
  The three dense-product regions, each read as ONE function of the arrays it is entered with: its grid has ten points,
  point t handles rows 5000 t … 5000 t + 4999 of the left array against the whole 128 x 128 weight, and writes those rows of
  the output; so after the region the output array is the product of the two entered arrays (`Cert.Net.lin`).
-/
import proofs.«157134_j64020782514491_1_alg».proof.Proof.Gen.KernelIdeal.Frame
import proofs.«157134_j64020782514491_1_alg».proof.Proof.Net
import proofs.«157134_j64020782514491_1_alg».proof.Proof.Payload
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload

variable (V : (c : Dev nD) → (b : Ref sig .tc) → Buf (Elt Ideal) ((c : Thread nD τ).loc b))

/-! ## Region 0: the dense product of `main_arg0` (5000 rows per grid point) with `main_arg2` (whole at every point) -/

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t (rows 5000 t … 5000 t + 4999) of the product of the two arrays as the
    region finds them: the left block holds those rows, the right block the whole weight. -/
theorem flushed0 (c : Dev nD) (t : Fin cfg0.N) :
    (dat0 V c).flushed 2 t = ((cfg0.win 2).blk t).view.read (Elt Ideal) (Cert.Net.lin (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Net.lin (V c main_arg0) (V c main_arg2) (((cfg0.win 2).blk t).view.emb (ix2 p q))
  refine (k0_pay1_at _ _ p q).trans ?_
  unfold Cert.Net.lin
  refine Finset.sum_congr rfl fun k _ => ?_
  have hA : iblk0 V c 0 t (ix2 p k) = V c main_arg0 (ix2 ((((cfg0.win 2).blk t).view.emb (ix2 p q)) 0) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hB : iblk0 V c 1 t (ix2 k q) = V c main_arg2 (ix2 k ((((cfg0.win 2).blk t).view.emb (ix2 p q)) 1)) := by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hA, hB]

/-- An entry is in point t's block iff its row is among the block's 5000 rows. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- Row r is written by point r / 5000: the ten blocks tile the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨e0, e1, e2, e3, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- After the region its output array is the product of the two arrays it was entered with. -/
theorem final0 (c : Dev nD) : (dat0 V c).arrAt 2 cfg0.N = Cert.Net.lin (V c main_arg0) (V c main_arg2) :=
  (dat0 V c).arrAt_eq_of_cover 2 _ (fun t _ => flushed0 V c t) (cover0)

/-! ## Region 2: the dense product of `main_v46` (5000 rows per grid point) with `main_arg4` (whole at every point) -/

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t (rows 5000 t … 5000 t + 4999) of the product of the two arrays as the
    region finds them: the left block holds those rows, the right block the whole weight. -/
theorem flushed2 (c : Dev nD) (t : Fin cfg2.N) :
    (dat2 V c).flushed 2 t = ((cfg2.win 2).blk t).view.read (Elt Ideal) (Cert.Net.lin (V c main_v46) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx2 t
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = Cert.Net.lin (V c main_v46) (V c main_arg4) (((cfg2.win 2).blk t).view.emb (ix2 p q))
  refine (k2_pay1_at _ _ p q).trans ?_
  unfold Cert.Net.lin
  refine Finset.sum_congr rfl fun k _ => ?_
  have hA : iblk2 V c 0 t (ix2 p k) = V c main_v46 (ix2 ((((cfg2.win 2).blk t).view.emb (ix2 p q)) 0) k) := by
    show V c main_v46 (((cfg2.win 0).blk t).view.emb (ix2 p k)) = _
    refine congrArg _ (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hB : iblk2 V c 1 t (ix2 k q) = V c main_arg4 (ix2 k ((((cfg2.win 2).blk t).view.emb (ix2 p q)) 1)) := by
    show V c main_arg4 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hA, hB]

/-- An entry is in point t's block iff its row is among the block's 5000 rows. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- Row r is written by point r / 5000: the ten blocks tile the array. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  have ht : (i 0).val / 5000 < grid2.N := by rw [hN]; omega
  obtain ⟨e0, e1, e2, e3, e4, e5⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- After the region its output array is the product of the two arrays it was entered with. -/
theorem final2 (c : Dev nD) : (dat2 V c).arrAt 2 cfg2.N = Cert.Net.lin (V c main_v46) (V c main_arg4) :=
  (dat2 V c).arrAt_eq_of_cover 2 _ (fun t _ => flushed2 V c t) (cover2)

/-! ## Region 4: the dense product of `main_v78` (5000 rows per grid point) with `main_arg6` (whole at every point) -/

theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point t writes back is block t (rows 5000 t … 5000 t + 4999) of the product of the two arrays as the
    region finds them: the left block holds those rows, the right block the whole weight. -/
theorem flushed4 (c : Dev nD) (t : Fin cfg4.N) :
    (dat4 V c).flushed 2 t = ((cfg4.win 2).blk t).view.read (Elt Ideal) (Cert.Net.lin (V c main_v78) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx4 t
  funext j
  obtain ⟨p, q, rfl⟩ : ∃ (p : Fin 5000) (q : Fin 128), j = ix2 p q := ⟨j 0, j 1, eq_ix2 j⟩
  show k4_pay1 (iblk4 V c 0 t) (iblk4 V c 1 t) (ix2 p q)
    = Cert.Net.lin (V c main_v78) (V c main_arg6) (((cfg4.win 2).blk t).view.emb (ix2 p q))
  refine (k4_pay1_at _ _ p q).trans ?_
  unfold Cert.Net.lin
  refine Finset.sum_congr rfl fun k _ => ?_
  have hA : iblk4 V c 0 t (ix2 p k) = V c main_v78 (ix2 ((((cfg4.win 2).blk t).view.emb (ix2 p q)) 0) k) := by
    show V c main_v78 (((cfg4.win 0).blk t).view.emb (ix2 p k)) = _
    refine congrArg _ (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have hB : iblk4 V c 1 t (ix2 k q) = V c main_arg6 (ix2 k ((((cfg4.win 2).blk t).view.emb (ix2 p q)) 1)) := by
    show V c main_arg6 (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  rw [hA, hB]

/-- An entry is in point t's block iff its row is among the block's 5000 rows. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v79).slice (win4_2.rect t)).set ↔ _
  rw [View.set_slice_whole, Rect.mem_set_unit]
  exact Iff.rfl

/-- Row r is written by point r / 5000: the ten blocks tile the array. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  have ht : (i 0).val / 5000 < grid4.N := by rw [hN]; omega
  obtain ⟨e0, e1, e2, e3, e4, e5⟩ := idx4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    rw [e5]; omega

/-- After the region its output array is the product of the two arrays it was entered with. -/
theorem final4 (c : Dev nD) : (dat4 V c).arrAt 2 cfg4.N = Cert.Net.lin (V c main_v78) (V c main_arg6) :=
  (dat4 V c).arrAt_eq_of_cover 2 _ (fun t _ => flushed4 V c t) (cover4)

end Cert.KernelIdeal.RegionValue

end
-- ==== Proof.RegionBias.lean ====
/-
  The three bias regions, each read as ONE function of the arrays it is entered with: its grid has ten points, point t
  adds the whole 1 x 128 bias row to rows 5000 t … 5000 t + 4999 of the left array and writes those rows of the output; so
  after the region the output array is the entered array plus the bias row on every row (`Cert.Net.biasRow`).
-/
import proofs.«157134_j64020782514491_1_alg».proof.Proof.Gen.KernelIdeal.Frame
import proofs.«157134_j64020782514491_1_alg».proof.Proof.Net
import proofs.«157134_j64020782514491_1_alg».proof.Proof.Payload
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload

variable (V : (c : Dev nD) → (b : Ref sig .tc) → Buf (Elt Ideal) ((c : Thread nD τ).loc b))

/-! ## Region 1: the bias row `main_v44` (1 x 128, whole at every point) added to `main_v43` (5000 rows per grid point) -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of (array + bias row), of the two arrays as the region finds them. -/
theorem flushed1 (c : Dev nD) (t : Fin cfg1.N) :
    (dat1 V c).flushed 2 t = ((cfg1.win 2).blk t).view.read (Elt Ideal) (Cert.Net.biasRow (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx1 t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Cert.Net.biasRow (V c main_v43) (V c main_v44) (((cfg1.win 2).blk t).view.emb (ix2 p q))
  refine (k1_pay1_at _ _ p q).trans ?_
  unfold Cert.Net.biasRow
  have hA : iblk1 V c 0 t (ix2 p q) = V c main_v43 (((cfg1.win 2).blk t).view.emb (ix2 p q)) := by
    show V c main_v43 (((cfg1.win 0).blk t).view.emb (ix2 p q)) = _
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hB : iblk1 V c 1 t (ix2 (0 : Fin 1) q) = V c main_v44 (ix2 (0 : Fin 1) ((((cfg1.win 2).blk t).view.emb (ix2 p q)) 1)) := by
    show V c main_v44 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hA, hB]

/-- An entry is in point t's block iff its row is among the block's 5000 rows. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r is written by point r / 5000: the ten blocks tile the array. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have ht : (i 0).val / 5000 < grid1.N := by rw [hN]; omega
  obtain ⟨e0, e1, e2, e3, e4, e5⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- After the region its output array is the entered array plus the entered bias row on every row. -/
theorem final1 (c : Dev nD) : (dat1 V c).arrAt 2 cfg1.N = Cert.Net.biasRow (V c main_v43) (V c main_v44) :=
  (dat1 V c).arrAt_eq_of_cover 2 _ (fun t _ => flushed1 V c t) (cover1)

/-! ## Region 3: the bias row `main_v76` (1 x 128, whole at every point) added to `main_v75` (5000 rows per grid point) -/

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of (array + bias row), of the two arrays as the region finds them. -/
theorem flushed3 (c : Dev nD) (t : Fin cfg3.N) :
    (dat3 V c).flushed 2 t = ((cfg3.win 2).blk t).view.read (Elt Ideal) (Cert.Net.biasRow (V c main_v75) (V c main_v76)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx3 t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = Cert.Net.biasRow (V c main_v75) (V c main_v76) (((cfg3.win 2).blk t).view.emb (ix2 p q))
  refine (k3_pay1_at _ _ p q).trans ?_
  unfold Cert.Net.biasRow
  have hA : iblk3 V c 0 t (ix2 p q) = V c main_v75 (((cfg3.win 2).blk t).view.emb (ix2 p q)) := by
    show V c main_v75 (((cfg3.win 0).blk t).view.emb (ix2 p q)) = _
    refine congrArg _ (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have hB : iblk3 V c 1 t (ix2 (0 : Fin 1) q) = V c main_v76 (ix2 (0 : Fin 1) ((((cfg3.win 2).blk t).view.emb (ix2 p q)) 1)) := by
    show V c main_v76 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [hA, hB]

/-- An entry is in point t's block iff its row is among the block's 5000 rows. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v77).slice (win3_2.rect t)).set ↔ _
  rw [View.set_slice_whole, Rect.mem_set_unit]
  exact Iff.rfl

/-- Row r is written by point r / 5000: the ten blocks tile the array. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  have ht : (i 0).val / 5000 < grid3.N := by rw [hN]; omega
  obtain ⟨e0, e1, e2, e3, e4, e5⟩ := idx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e5]; omega

/-- After the region its output array is the entered array plus the entered bias row on every row. -/
theorem final3 (c : Dev nD) : (dat3 V c).arrAt 2 cfg3.N = Cert.Net.biasRow (V c main_v75) (V c main_v76) :=
  (dat3 V c).arrAt_eq_of_cover 2 _ (fun t _ => flushed3 V c t) (cover3)

/-! ## Region 5: the bias row `main_v108` (1 x 128, whole at every point) added to `main_v107` (5000 rows per grid point) -/

theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point t writes back is block t of (array + bias row), of the two arrays as the region finds them. -/
theorem flushed5 (c : Dev nD) (t : Fin cfg5.N) :
    (dat5 V c).flushed 2 t = ((cfg5.win 2).blk t).view.read (Elt Ideal) (Cert.Net.biasRow (V c main_v107) (V c main_v108)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx5 t
  funext j
  obtain ⟨p, q, rfl⟩ : ∃ (p : Fin 5000) (q : Fin 128), j = ix2 p q := ⟨j 0, j 1, eq_ix2 j⟩
  show k5_pay1 (iblk5 V c 0 t) (iblk5 V c 1 t) (ix2 p q)
    = Cert.Net.biasRow (V c main_v107) (V c main_v108) (((cfg5.win 2).blk t).view.emb (ix2 p q))
  refine (k5_pay1_at _ _ p q).trans ?_
  unfold Cert.Net.biasRow
  have hA : iblk5 V c 0 t (ix2 p q) = V c main_v107 (((cfg5.win 2).blk t).view.emb (ix2 p q)) := by
    show V c main_v107 (((cfg5.win 0).blk t).view.emb (ix2 p q)) = _
    refine congrArg _ (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * q.val = win5_2.index t (1 : Fin 2) * 128 + 1 * q.val; omega
  have hB : iblk5 V c 1 t (ix2 (0 : Fin 1) q) = V c main_v108 (ix2 (0 : Fin 1) ((((cfg5.win 2).blk t).view.emb (ix2 p q)) 1)) := by
    show V c main_v108 (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  rw [hA, hB]

/-- An entry is in point t's block iff its row is among the block's 5000 rows. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v109).slice (win5_2.rect t)).set ↔ _
  rw [View.set_slice_whole, Rect.mem_set_unit]
  exact Iff.rfl

/-- Row r is written by point r / 5000: the ten blocks tile the array. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : grid5.N = 10 := N_5
  have ht : (i 0).val / 5000 < grid5.N := by rw [hN]; omega
  obtain ⟨e0, e1, e2, e3, e4, e5⟩ := idx5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 128 ≤ (i 1).val ∧ (i 1).val < win5_2.index ⟨(i 0).val / 5000, ht⟩ (1 : Fin 2) * 128 + 128
    rw [e5]; omega

/-- After the region its output array is the entered array plus the entered bias row on every row. -/
theorem final5 (c : Dev nD) : (dat5 V c).arrAt 2 cfg5.N = Cert.Net.biasRow (V c main_v107) (V c main_v108) :=
  (dat5 V c).arrAt_eq_of_cover 2 _ (fun t _ => flushed5 V c t) (cover5)

end Cert.KernelIdeal.RegionValue

end
-- ==== Proof.KFold.lean ====
/-
  The idealized kernel's run, followed from the launch to the result array.
  The program alternates stretches of host operations with six kernel regions. Its first stretch builds, from the edge
  table alone, the edge ends `src`, `dst` and the weights' factor `dinv`; no later operation and no region writes
  these three arrays or an argument, so every later stretch reads them as first built (`keepK_…`). Each layer is then
  a dense-product region (`lin`), a host stretch that aggregates along the edges (`agg`) and casts the bias to a row,
  a bias region (`biasRow`), and — between layers — a host max(., 0). Composed, the result array holds `Cert.Net.net`
  of the arguments.
-/
import proofs.«157134_j64020782514491_1_alg».proof.Proof.Gen.KernelIdeal.Frame
import proofs.«157134_j64020782514491_1_alg».proof.Proof.Net
import proofs.«157134_j64020782514491_1_alg».proof.Proof.RegionLin
import proofs.«157134_j64020782514491_1_alg».proof.Proof.RegionBias
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.RegionValue

variable (m : (ℓ : Loc nD τ sig) → Buf (Elt Ideal) ℓ) (ρ : Dev nD → PrngReg) (c : Dev nD)

/-! ## Before the first region: the arguments as launched, and the three arrays built from the edge table -/

theorem start_main_arg0 : W2 m ρ c (Proc.devRef .tc main_arg0) = m ((c : Thread nD τ).loc main_arg0) := by
  show StableHlo.after hostOps0_1 (StableHlo.after hostOps0 (W0 m ρ c)) (Proc.devRef .tc main_arg0) = _
  after_results_simp <;> rfl
theorem start_main_arg2 : W2 m ρ c (Proc.devRef .tc main_arg2) = m ((c : Thread nD τ).loc main_arg2) := by
  show StableHlo.after hostOps0_1 (StableHlo.after hostOps0 (W0 m ρ c)) (Proc.devRef .tc main_arg2) = _
  after_results_simp <;> rfl
theorem start_main_arg3 : W2 m ρ c (Proc.devRef .tc main_arg3) = m ((c : Thread nD τ).loc main_arg3) := by
  show StableHlo.after hostOps0_1 (StableHlo.after hostOps0 (W0 m ρ c)) (Proc.devRef .tc main_arg3) = _
  after_results_simp <;> rfl
theorem start_main_arg4 : W2 m ρ c (Proc.devRef .tc main_arg4) = m ((c : Thread nD τ).loc main_arg4) := by
  show StableHlo.after hostOps0_1 (StableHlo.after hostOps0 (W0 m ρ c)) (Proc.devRef .tc main_arg4) = _
  after_results_simp <;> rfl
theorem start_main_arg5 : W2 m ρ c (Proc.devRef .tc main_arg5) = m ((c : Thread nD τ).loc main_arg5) := by
  show StableHlo.after hostOps0_1 (StableHlo.after hostOps0 (W0 m ρ c)) (Proc.devRef .tc main_arg5) = _
  after_results_simp <;> rfl
theorem start_main_arg6 : W2 m ρ c (Proc.devRef .tc main_arg6) = m ((c : Thread nD τ).loc main_arg6) := by
  show StableHlo.after hostOps0_1 (StableHlo.after hostOps0 (W0 m ρ c)) (Proc.devRef .tc main_arg6) = _
  after_results_simp <;> rfl
theorem start_main_arg7 : W2 m ρ c (Proc.devRef .tc main_arg7) = m ((c : Thread nD τ).loc main_arg7) := by
  show StableHlo.after hostOps0_1 (StableHlo.after hostOps0 (W0 m ρ c)) (Proc.devRef .tc main_arg7) = _
  after_results_simp <;> rfl

set_option maxHeartbeats 4000000 in
theorem start_src : W2 m ρ c (Proc.devRef .tc main_v3) = Cert.Net.src (m ((c : Thread nD τ).loc main_arg1)) := by
  show StableHlo.after hostOps0_1 (StableHlo.after hostOps0 (W0 m ρ c)) (Proc.devRef .tc main_v3) = _
  after_results
  rfl

set_option maxHeartbeats 4000000 in
theorem start_dst : W2 m ρ c (Proc.devRef .tc main_v6) = Cert.Net.dst (m ((c : Thread nD τ).loc main_arg1)) := by
  show StableHlo.after hostOps0_1 (StableHlo.after hostOps0 (W0 m ρ c)) (Proc.devRef .tc main_v6) = _
  after_results
  rfl

set_option maxHeartbeats 4000000 in
/-- Before the selection: where the degree is positive … -/
theorem mid_pos : W1 m ρ c (Proc.devRef .tc main_v12)
    = cmpf .ogt (Cert.Net.deg (Cert.Net.dst (m ((c : Thread nD τ).loc main_arg1)))) (broadcastInDim S50000 ![] bcast_S_S50000 (constant S_ .f32 0x00000000#32)) := by
  show StableHlo.after hostOps0 (W0 m ρ c) (Proc.devRef .tc main_v12) = _
  after_results
  rfl

set_option maxHeartbeats 4000000 in
/-- … the degrees' inverse square roots … -/
theorem mid_rsqrt : W1 m ρ c (Proc.devRef .tc main_v13) = Host.rsqrt (Cert.Net.deg (Cert.Net.dst (m ((c : Thread nD τ).loc main_arg1)))) := by
  show StableHlo.after hostOps0 (W0 m ρ c) (Proc.devRef .tc main_v13) = _
  after_results
  rfl

/-- … and the zero that stands where the degree is not positive. -/
theorem mid_zero : W1 m ρ c (Proc.devRef .tc main_cst_2) = constant (F := Ideal) S_ .f32 0x00000000#32 := by
  show StableHlo.after hostOps0 (W0 m ρ c) (Proc.devRef .tc main_cst_2) = _
  after_results_simp <;> rfl

/-- The selection, from any contents. -/
theorem where_from (M : Valuation τ sig (Elt Ideal)) : StableHlo.after hostOps0_1 M (Proc.devRef .tc main_v14)
    = select (M (Proc.devRef .tc main_v12)) (M (Proc.devRef .tc main_v13)) (broadcastInDim S50000 ![] bcast_S_S50000 (M (Proc.devRef .tc main_cst_2))) := by
  after_results
  rfl

theorem start_dinv : W2 m ρ c (Proc.devRef .tc main_v14) = Cert.Net.dinv (Cert.Net.dst (m ((c : Thread nD τ).loc main_arg1))) := by
  refine (where_from (W1 m ρ c)).trans ?_
  rw [mid_pos, mid_rsqrt, mid_zero]
  rfl

/-! ## Nothing later writes them -/

theorem keep3_main_v3 : W3 m ρ c (Proc.devRef .tc main_v3) = W2 m ρ c (Proc.devRef .tc main_v3) :=
  W3_of_ne m ρ c main_v3 (by decide)
theorem keep3_main_v6 : W3 m ρ c (Proc.devRef .tc main_v6) = W2 m ρ c (Proc.devRef .tc main_v6) :=
  W3_of_ne m ρ c main_v6 (by decide)
theorem keep3_main_v14 : W3 m ρ c (Proc.devRef .tc main_v14) = W2 m ρ c (Proc.devRef .tc main_v14) :=
  W3_of_ne m ρ c main_v14 (by decide)
theorem keep3_main_arg3 : W3 m ρ c (Proc.devRef .tc main_arg3) = W2 m ρ c (Proc.devRef .tc main_arg3) :=
  W3_of_ne m ρ c main_arg3 (by decide)
theorem keep3_main_arg4 : W3 m ρ c (Proc.devRef .tc main_arg4) = W2 m ρ c (Proc.devRef .tc main_arg4) :=
  W3_of_ne m ρ c main_arg4 (by decide)
theorem keep3_main_arg5 : W3 m ρ c (Proc.devRef .tc main_arg5) = W2 m ρ c (Proc.devRef .tc main_arg5) :=
  W3_of_ne m ρ c main_arg5 (by decide)
theorem keep3_main_arg6 : W3 m ρ c (Proc.devRef .tc main_arg6) = W2 m ρ c (Proc.devRef .tc main_arg6) :=
  W3_of_ne m ρ c main_arg6 (by decide)
theorem keep3_main_arg7 : W3 m ρ c (Proc.devRef .tc main_arg7) = W2 m ρ c (Proc.devRef .tc main_arg7) :=
  W3_of_ne m ρ c main_arg7 (by decide)
theorem keep4_main_v3 : W4 m ρ c (Proc.devRef .tc main_v3) = W2 m ρ c (Proc.devRef .tc main_v3) :=
  (show StableHlo.after hostOps1 (W3 m ρ c) (Proc.devRef .tc main_v3) = W3 m ρ c (Proc.devRef .tc main_v3) by after_results_simp <;> rfl).trans (keep3_main_v3 m ρ c)
theorem keep4_main_v6 : W4 m ρ c (Proc.devRef .tc main_v6) = W2 m ρ c (Proc.devRef .tc main_v6) :=
  (show StableHlo.after hostOps1 (W3 m ρ c) (Proc.devRef .tc main_v6) = W3 m ρ c (Proc.devRef .tc main_v6) by after_results_simp <;> rfl).trans (keep3_main_v6 m ρ c)
theorem keep4_main_v14 : W4 m ρ c (Proc.devRef .tc main_v14) = W2 m ρ c (Proc.devRef .tc main_v14) :=
  (show StableHlo.after hostOps1 (W3 m ρ c) (Proc.devRef .tc main_v14) = W3 m ρ c (Proc.devRef .tc main_v14) by after_results_simp <;> rfl).trans (keep3_main_v14 m ρ c)
theorem keep4_main_arg4 : W4 m ρ c (Proc.devRef .tc main_arg4) = W2 m ρ c (Proc.devRef .tc main_arg4) :=
  (show StableHlo.after hostOps1 (W3 m ρ c) (Proc.devRef .tc main_arg4) = W3 m ρ c (Proc.devRef .tc main_arg4) by after_results_simp <;> rfl).trans (keep3_main_arg4 m ρ c)
theorem keep4_main_arg5 : W4 m ρ c (Proc.devRef .tc main_arg5) = W2 m ρ c (Proc.devRef .tc main_arg5) :=
  (show StableHlo.after hostOps1 (W3 m ρ c) (Proc.devRef .tc main_arg5) = W3 m ρ c (Proc.devRef .tc main_arg5) by after_results_simp <;> rfl).trans (keep3_main_arg5 m ρ c)
theorem keep4_main_arg6 : W4 m ρ c (Proc.devRef .tc main_arg6) = W2 m ρ c (Proc.devRef .tc main_arg6) :=
  (show StableHlo.after hostOps1 (W3 m ρ c) (Proc.devRef .tc main_arg6) = W3 m ρ c (Proc.devRef .tc main_arg6) by after_results_simp <;> rfl).trans (keep3_main_arg6 m ρ c)
theorem keep4_main_arg7 : W4 m ρ c (Proc.devRef .tc main_arg7) = W2 m ρ c (Proc.devRef .tc main_arg7) :=
  (show StableHlo.after hostOps1 (W3 m ρ c) (Proc.devRef .tc main_arg7) = W3 m ρ c (Proc.devRef .tc main_arg7) by after_results_simp <;> rfl).trans (keep3_main_arg7 m ρ c)
theorem keep5_main_v3 : W5 m ρ c (Proc.devRef .tc main_v3) = W2 m ρ c (Proc.devRef .tc main_v3) :=
  (W5_of_ne m ρ c main_v3 (by decide)).trans (keep4_main_v3 m ρ c)
theorem keep5_main_v6 : W5 m ρ c (Proc.devRef .tc main_v6) = W2 m ρ c (Proc.devRef .tc main_v6) :=
  (W5_of_ne m ρ c main_v6 (by decide)).trans (keep4_main_v6 m ρ c)
theorem keep5_main_v14 : W5 m ρ c (Proc.devRef .tc main_v14) = W2 m ρ c (Proc.devRef .tc main_v14) :=
  (W5_of_ne m ρ c main_v14 (by decide)).trans (keep4_main_v14 m ρ c)
theorem keep5_main_arg4 : W5 m ρ c (Proc.devRef .tc main_arg4) = W2 m ρ c (Proc.devRef .tc main_arg4) :=
  (W5_of_ne m ρ c main_arg4 (by decide)).trans (keep4_main_arg4 m ρ c)
theorem keep5_main_arg5 : W5 m ρ c (Proc.devRef .tc main_arg5) = W2 m ρ c (Proc.devRef .tc main_arg5) :=
  (W5_of_ne m ρ c main_arg5 (by decide)).trans (keep4_main_arg5 m ρ c)
theorem keep5_main_arg6 : W5 m ρ c (Proc.devRef .tc main_arg6) = W2 m ρ c (Proc.devRef .tc main_arg6) :=
  (W5_of_ne m ρ c main_arg6 (by decide)).trans (keep4_main_arg6 m ρ c)
theorem keep5_main_arg7 : W5 m ρ c (Proc.devRef .tc main_arg7) = W2 m ρ c (Proc.devRef .tc main_arg7) :=
  (W5_of_ne m ρ c main_arg7 (by decide)).trans (keep4_main_arg7 m ρ c)
theorem keep6_main_v3 : W6 m ρ c (Proc.devRef .tc main_v3) = W2 m ρ c (Proc.devRef .tc main_v3) :=
  (show StableHlo.after hostOps2 (W5 m ρ c) (Proc.devRef .tc main_v3) = W5 m ρ c (Proc.devRef .tc main_v3) by after_results_simp <;> rfl).trans (keep5_main_v3 m ρ c)
theorem keep6_main_v6 : W6 m ρ c (Proc.devRef .tc main_v6) = W2 m ρ c (Proc.devRef .tc main_v6) :=
  (show StableHlo.after hostOps2 (W5 m ρ c) (Proc.devRef .tc main_v6) = W5 m ρ c (Proc.devRef .tc main_v6) by after_results_simp <;> rfl).trans (keep5_main_v6 m ρ c)
theorem keep6_main_v14 : W6 m ρ c (Proc.devRef .tc main_v14) = W2 m ρ c (Proc.devRef .tc main_v14) :=
  (show StableHlo.after hostOps2 (W5 m ρ c) (Proc.devRef .tc main_v14) = W5 m ρ c (Proc.devRef .tc main_v14) by after_results_simp <;> rfl).trans (keep5_main_v14 m ρ c)
theorem keep6_main_arg4 : W6 m ρ c (Proc.devRef .tc main_arg4) = W2 m ρ c (Proc.devRef .tc main_arg4) :=
  (show StableHlo.after hostOps2 (W5 m ρ c) (Proc.devRef .tc main_arg4) = W5 m ρ c (Proc.devRef .tc main_arg4) by after_results_simp <;> rfl).trans (keep5_main_arg4 m ρ c)
theorem keep6_main_arg5 : W6 m ρ c (Proc.devRef .tc main_arg5) = W2 m ρ c (Proc.devRef .tc main_arg5) :=
  (show StableHlo.after hostOps2 (W5 m ρ c) (Proc.devRef .tc main_arg5) = W5 m ρ c (Proc.devRef .tc main_arg5) by after_results_simp <;> rfl).trans (keep5_main_arg5 m ρ c)
theorem keep6_main_arg6 : W6 m ρ c (Proc.devRef .tc main_arg6) = W2 m ρ c (Proc.devRef .tc main_arg6) :=
  (show StableHlo.after hostOps2 (W5 m ρ c) (Proc.devRef .tc main_arg6) = W5 m ρ c (Proc.devRef .tc main_arg6) by after_results_simp <;> rfl).trans (keep5_main_arg6 m ρ c)
theorem keep6_main_arg7 : W6 m ρ c (Proc.devRef .tc main_arg7) = W2 m ρ c (Proc.devRef .tc main_arg7) :=
  (show StableHlo.after hostOps2 (W5 m ρ c) (Proc.devRef .tc main_arg7) = W5 m ρ c (Proc.devRef .tc main_arg7) by after_results_simp <;> rfl).trans (keep5_main_arg7 m ρ c)
theorem keep7_main_v3 : W7 m ρ c (Proc.devRef .tc main_v3) = W2 m ρ c (Proc.devRef .tc main_v3) :=
  (W7_of_ne m ρ c main_v3 (by decide)).trans (keep6_main_v3 m ρ c)
theorem keep7_main_v6 : W7 m ρ c (Proc.devRef .tc main_v6) = W2 m ρ c (Proc.devRef .tc main_v6) :=
  (W7_of_ne m ρ c main_v6 (by decide)).trans (keep6_main_v6 m ρ c)
theorem keep7_main_v14 : W7 m ρ c (Proc.devRef .tc main_v14) = W2 m ρ c (Proc.devRef .tc main_v14) :=
  (W7_of_ne m ρ c main_v14 (by decide)).trans (keep6_main_v14 m ρ c)
theorem keep7_main_arg5 : W7 m ρ c (Proc.devRef .tc main_arg5) = W2 m ρ c (Proc.devRef .tc main_arg5) :=
  (W7_of_ne m ρ c main_arg5 (by decide)).trans (keep6_main_arg5 m ρ c)
theorem keep7_main_arg6 : W7 m ρ c (Proc.devRef .tc main_arg6) = W2 m ρ c (Proc.devRef .tc main_arg6) :=
  (W7_of_ne m ρ c main_arg6 (by decide)).trans (keep6_main_arg6 m ρ c)
theorem keep7_main_arg7 : W7 m ρ c (Proc.devRef .tc main_arg7) = W2 m ρ c (Proc.devRef .tc main_arg7) :=
  (W7_of_ne m ρ c main_arg7 (by decide)).trans (keep6_main_arg7 m ρ c)
theorem keep8_main_v3 : W8 m ρ c (Proc.devRef .tc main_v3) = W2 m ρ c (Proc.devRef .tc main_v3) :=
  (show StableHlo.after hostOps3 (W7 m ρ c) (Proc.devRef .tc main_v3) = W7 m ρ c (Proc.devRef .tc main_v3) by after_results_simp <;> rfl).trans (keep7_main_v3 m ρ c)
theorem keep8_main_v6 : W8 m ρ c (Proc.devRef .tc main_v6) = W2 m ρ c (Proc.devRef .tc main_v6) :=
  (show StableHlo.after hostOps3 (W7 m ρ c) (Proc.devRef .tc main_v6) = W7 m ρ c (Proc.devRef .tc main_v6) by after_results_simp <;> rfl).trans (keep7_main_v6 m ρ c)
theorem keep8_main_v14 : W8 m ρ c (Proc.devRef .tc main_v14) = W2 m ρ c (Proc.devRef .tc main_v14) :=
  (show StableHlo.after hostOps3 (W7 m ρ c) (Proc.devRef .tc main_v14) = W7 m ρ c (Proc.devRef .tc main_v14) by after_results_simp <;> rfl).trans (keep7_main_v14 m ρ c)
theorem keep8_main_arg6 : W8 m ρ c (Proc.devRef .tc main_arg6) = W2 m ρ c (Proc.devRef .tc main_arg6) :=
  (show StableHlo.after hostOps3 (W7 m ρ c) (Proc.devRef .tc main_arg6) = W7 m ρ c (Proc.devRef .tc main_arg6) by after_results_simp <;> rfl).trans (keep7_main_arg6 m ρ c)
theorem keep8_main_arg7 : W8 m ρ c (Proc.devRef .tc main_arg7) = W2 m ρ c (Proc.devRef .tc main_arg7) :=
  (show StableHlo.after hostOps3 (W7 m ρ c) (Proc.devRef .tc main_arg7) = W7 m ρ c (Proc.devRef .tc main_arg7) by after_results_simp <;> rfl).trans (keep7_main_arg7 m ρ c)
theorem keep9_main_v3 : W9 m ρ c (Proc.devRef .tc main_v3) = W2 m ρ c (Proc.devRef .tc main_v3) :=
  (W9_of_ne m ρ c main_v3 (by decide)).trans (keep8_main_v3 m ρ c)
theorem keep9_main_v6 : W9 m ρ c (Proc.devRef .tc main_v6) = W2 m ρ c (Proc.devRef .tc main_v6) :=
  (W9_of_ne m ρ c main_v6 (by decide)).trans (keep8_main_v6 m ρ c)
theorem keep9_main_v14 : W9 m ρ c (Proc.devRef .tc main_v14) = W2 m ρ c (Proc.devRef .tc main_v14) :=
  (W9_of_ne m ρ c main_v14 (by decide)).trans (keep8_main_v14 m ρ c)
theorem keep9_main_arg6 : W9 m ρ c (Proc.devRef .tc main_arg6) = W2 m ρ c (Proc.devRef .tc main_arg6) :=
  (W9_of_ne m ρ c main_arg6 (by decide)).trans (keep8_main_arg6 m ρ c)
theorem keep9_main_arg7 : W9 m ρ c (Proc.devRef .tc main_arg7) = W2 m ρ c (Proc.devRef .tc main_arg7) :=
  (W9_of_ne m ρ c main_arg7 (by decide)).trans (keep8_main_arg7 m ρ c)
theorem keep10_main_v3 : W10 m ρ c (Proc.devRef .tc main_v3) = W2 m ρ c (Proc.devRef .tc main_v3) :=
  (show StableHlo.after hostOps4 (W9 m ρ c) (Proc.devRef .tc main_v3) = W9 m ρ c (Proc.devRef .tc main_v3) by after_results_simp <;> rfl).trans (keep9_main_v3 m ρ c)
theorem keep10_main_v6 : W10 m ρ c (Proc.devRef .tc main_v6) = W2 m ρ c (Proc.devRef .tc main_v6) :=
  (show StableHlo.after hostOps4 (W9 m ρ c) (Proc.devRef .tc main_v6) = W9 m ρ c (Proc.devRef .tc main_v6) by after_results_simp <;> rfl).trans (keep9_main_v6 m ρ c)
theorem keep10_main_v14 : W10 m ρ c (Proc.devRef .tc main_v14) = W2 m ρ c (Proc.devRef .tc main_v14) :=
  (show StableHlo.after hostOps4 (W9 m ρ c) (Proc.devRef .tc main_v14) = W9 m ρ c (Proc.devRef .tc main_v14) by after_results_simp <;> rfl).trans (keep9_main_v14 m ρ c)
theorem keep10_main_arg6 : W10 m ρ c (Proc.devRef .tc main_arg6) = W2 m ρ c (Proc.devRef .tc main_arg6) :=
  (show StableHlo.after hostOps4 (W9 m ρ c) (Proc.devRef .tc main_arg6) = W9 m ρ c (Proc.devRef .tc main_arg6) by after_results_simp <;> rfl).trans (keep9_main_arg6 m ρ c)
theorem keep10_main_arg7 : W10 m ρ c (Proc.devRef .tc main_arg7) = W2 m ρ c (Proc.devRef .tc main_arg7) :=
  (show StableHlo.after hostOps4 (W9 m ρ c) (Proc.devRef .tc main_arg7) = W9 m ρ c (Proc.devRef .tc main_arg7) by after_results_simp <;> rfl).trans (keep9_main_arg7 m ρ c)
theorem keep11_main_v3 : W11 m ρ c (Proc.devRef .tc main_v3) = W2 m ρ c (Proc.devRef .tc main_v3) :=
  (W11_of_ne m ρ c main_v3 (by decide)).trans (keep10_main_v3 m ρ c)
theorem keep11_main_v6 : W11 m ρ c (Proc.devRef .tc main_v6) = W2 m ρ c (Proc.devRef .tc main_v6) :=
  (W11_of_ne m ρ c main_v6 (by decide)).trans (keep10_main_v6 m ρ c)
theorem keep11_main_v14 : W11 m ρ c (Proc.devRef .tc main_v14) = W2 m ρ c (Proc.devRef .tc main_v14) :=
  (W11_of_ne m ρ c main_v14 (by decide)).trans (keep10_main_v14 m ρ c)
theorem keep11_main_arg7 : W11 m ρ c (Proc.devRef .tc main_arg7) = W2 m ρ c (Proc.devRef .tc main_arg7) :=
  (W11_of_ne m ρ c main_arg7 (by decide)).trans (keep10_main_arg7 m ρ c)

/-! ## The layers -/

/-- The edge ends and the weights' factor, as built from the edge table. -/
abbrev eSrc : IVec Cert.ReferenceIdeal.S850000 32 := Cert.Net.src (m ((c : Thread nD τ).loc main_arg1))
abbrev eDst : IVec Cert.ReferenceIdeal.S850000 32 := Cert.Net.dst (m ((c : Thread nD τ).loc main_arg1))
abbrev eDinv : FVec Ideal Cert.ReferenceIdeal.S50000 .f32 := Cert.Net.dinv (Cert.Net.dst (m ((c : Thread nD τ).loc main_arg1)))

/-- The features after layer 1, layer 2 (each before its max(., 0)) and layer 3. -/
def feat1 : FVec Ideal Cert.ReferenceIdeal.S50000x128 .f32 :=
  Cert.Net.layer (eSrc m c) (eDst m c) (eDinv m c) (m ((c : Thread nD τ).loc main_arg0)) (m ((c : Thread nD τ).loc main_arg2)) (m ((c : Thread nD τ).loc main_arg3))
def feat2 : FVec Ideal Cert.ReferenceIdeal.S50000x128 .f32 :=
  Cert.Net.layer (eSrc m c) (eDst m c) (eDinv m c) (Cert.Net.relu (feat1 m c)) (m ((c : Thread nD τ).loc main_arg4)) (m ((c : Thread nD τ).loc main_arg5))
def feat3 : FVec Ideal Cert.ReferenceIdeal.S50000x128 .f32 :=
  Cert.Net.layer (eSrc m c) (eDst m c) (eDinv m c) (Cert.Net.relu (feat2 m c)) (m ((c : Thread nD τ).loc main_arg6)) (m ((c : Thread nD τ).loc main_arg7))

/-- Layer 1: the dense-product region leaves the product of the features and the weight. -/
theorem dense1 : W3 m ρ c (Proc.devRef .tc main_v15) = Cert.Net.lin (m ((c : Thread nD τ).loc main_arg0)) (m ((c : Thread nD τ).loc main_arg2)) := by
  refine (W3_arr m ρ c 2).trans ((final0 (V2 m ρ) c).trans ?_)
  exact congrArg₂ Cert.Net.lin (start_main_arg0 m ρ c) (start_main_arg2 m ρ c)

set_option maxHeartbeats 4000000 in
/-- Layer 1: the host stretch aggregates along the edges … -/
theorem agg1 : W4 m ρ c (Proc.devRef .tc main_v43)
    = Cert.Net.agg (W3 m ρ c (Proc.devRef .tc main_v3)) (W3 m ρ c (Proc.devRef .tc main_v6)) (W3 m ρ c (Proc.devRef .tc main_v14)) (W3 m ρ c (Proc.devRef .tc main_v15)) := by
  show StableHlo.after hostOps1 (W3 m ρ c) (Proc.devRef .tc main_v43) = _
  after_results_simp <;> rfl

set_option maxHeartbeats 4000000 in
/-- … and casts the bias vector to a 1 x 128 row. -/
theorem row1 : W4 m ρ c (Proc.devRef .tc main_v44) = shapeCast S1x128 (W3 m ρ c (Proc.devRef .tc main_arg3)) shapeCasts_S128_S1x128 := by
  show StableHlo.after hostOps1 (W3 m ρ c) (Proc.devRef .tc main_v44) = _
  after_results_simp <;> rfl

/-- Layer 1: the bias region leaves the layer's features. -/
theorem out1 : W5 m ρ c (Proc.devRef .tc main_v45) = feat1 m c := by
  refine (W5_arr m ρ c 2).trans ((final1 (V4 m ρ) c).trans ?_)
  show Cert.Net.biasRow (W4 m ρ c (Proc.devRef .tc main_v43)) (W4 m ρ c (Proc.devRef .tc main_v44)) = _
  rw [agg1, row1, keep3_main_v3, keep3_main_v6, keep3_main_v14, keep3_main_arg3, start_src, start_dst, start_dinv, start_main_arg3,
    dense1, Cert.Net.biasRow_cast]
  rfl

/-- Between layers 1 and 2: the host's max(., 0). -/
theorem relu1 : W6 m ρ c (Proc.devRef .tc main_v46) = Cert.Net.relu (feat1 m c) := by
  refine (show StableHlo.after hostOps2 (W5 m ρ c) (Proc.devRef .tc main_v46) = Cert.Net.relu (W5 m ρ c (Proc.devRef .tc main_v45)) by after_results_simp <;> rfl).trans ?_
  rw [out1]

/-- Layer 2: the dense-product region leaves the product of the features and the weight. -/
theorem dense2 : W7 m ρ c (Proc.devRef .tc main_v47) = Cert.Net.lin (Cert.Net.relu (feat1 m c)) (m ((c : Thread nD τ).loc main_arg4)) := by
  refine (W7_arr m ρ c 2).trans ((final2 (V6 m ρ) c).trans ?_)
  show Cert.Net.lin (W6 m ρ c (Proc.devRef .tc main_v46)) (W6 m ρ c (Proc.devRef .tc main_arg4)) = _
  rw [relu1, keep6_main_arg4, start_main_arg4]

set_option maxHeartbeats 4000000 in
/-- Layer 2: the host stretch aggregates along the edges … -/
theorem agg2 : W8 m ρ c (Proc.devRef .tc main_v75)
    = Cert.Net.agg (W7 m ρ c (Proc.devRef .tc main_v3)) (W7 m ρ c (Proc.devRef .tc main_v6)) (W7 m ρ c (Proc.devRef .tc main_v14)) (W7 m ρ c (Proc.devRef .tc main_v47)) := by
  show StableHlo.after hostOps3 (W7 m ρ c) (Proc.devRef .tc main_v75) = _
  after_results_simp <;> rfl

set_option maxHeartbeats 4000000 in
/-- … and casts the bias vector to a 1 x 128 row. -/
theorem row2 : W8 m ρ c (Proc.devRef .tc main_v76) = shapeCast S1x128 (W7 m ρ c (Proc.devRef .tc main_arg5)) shapeCasts_S128_S1x128 := by
  show StableHlo.after hostOps3 (W7 m ρ c) (Proc.devRef .tc main_v76) = _
  after_results_simp <;> rfl

/-- Layer 2: the bias region leaves the layer's features. -/
theorem out2 : W9 m ρ c (Proc.devRef .tc main_v77) = feat2 m c := by
  refine (W9_arr m ρ c 2).trans ((final3 (V8 m ρ) c).trans ?_)
  show Cert.Net.biasRow (W8 m ρ c (Proc.devRef .tc main_v75)) (W8 m ρ c (Proc.devRef .tc main_v76)) = _
  rw [agg2, row2, keep7_main_v3, keep7_main_v6, keep7_main_v14, keep7_main_arg5, start_src, start_dst, start_dinv, start_main_arg5,
    dense2, Cert.Net.biasRow_cast]
  rfl

/-- Between layers 2 and 3: the host's max(., 0). -/
theorem relu2 : W10 m ρ c (Proc.devRef .tc main_v78) = Cert.Net.relu (feat2 m c) := by
  refine (show StableHlo.after hostOps4 (W9 m ρ c) (Proc.devRef .tc main_v78) = Cert.Net.relu (W9 m ρ c (Proc.devRef .tc main_v77)) by after_results_simp <;> rfl).trans ?_
  rw [out2]

/-- Layer 3: the dense-product region leaves the product of the features and the weight. -/
theorem dense3 : W11 m ρ c (Proc.devRef .tc main_v79) = Cert.Net.lin (Cert.Net.relu (feat2 m c)) (m ((c : Thread nD τ).loc main_arg6)) := by
  refine (W11_arr m ρ c 2).trans ((final4 (V10 m ρ) c).trans ?_)
  show Cert.Net.lin (W10 m ρ c (Proc.devRef .tc main_v78)) (W10 m ρ c (Proc.devRef .tc main_arg6)) = _
  rw [relu2, keep10_main_arg6, start_main_arg6]

set_option maxHeartbeats 4000000 in
/-- Layer 3: the host stretch aggregates along the edges … -/
theorem agg3 : W12 m ρ c (Proc.devRef .tc main_v107)
    = Cert.Net.agg (W11 m ρ c (Proc.devRef .tc main_v3)) (W11 m ρ c (Proc.devRef .tc main_v6)) (W11 m ρ c (Proc.devRef .tc main_v14)) (W11 m ρ c (Proc.devRef .tc main_v79)) := by
  show StableHlo.after hostOps5 (W11 m ρ c) (Proc.devRef .tc main_v107) = _
  after_results_simp <;> rfl

set_option maxHeartbeats 4000000 in
/-- … and casts the bias vector to a 1 x 128 row. -/
theorem row3 : W12 m ρ c (Proc.devRef .tc main_v108) = shapeCast S1x128 (W11 m ρ c (Proc.devRef .tc main_arg7)) shapeCasts_S128_S1x128 := by
  show StableHlo.after hostOps5 (W11 m ρ c) (Proc.devRef .tc main_v108) = _
  after_results_simp <;> rfl

/-- Layer 3: the bias region leaves the layer's features. -/
theorem out3 : W13 m ρ c (Proc.devRef .tc main_v109) = feat3 m c := by
  refine (W13_arr m ρ c 2).trans ((final5 (V12 m ρ) c).trans ?_)
  show Cert.Net.biasRow (W12 m ρ c (Proc.devRef .tc main_v107)) (W12 m ρ c (Proc.devRef .tc main_v108)) = _
  rw [agg3, row3, keep11_main_v3, keep11_main_v6, keep11_main_v14, keep11_main_arg7, start_src, start_dst, start_dinv, start_main_arg7,
    dense3, Cert.Net.biasRow_cast]
  rfl

/-- The result array after the run: the network of the arguments. -/
theorem result : W13 m ρ c (Proc.devRef .tc main_v109)
    = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  out3 m ρ c

end Cert.KernelIdeal.Fold

end
-- ==== Proof.KRun.lean ====
/-
  The idealized kernel's run with its result named: every weakly fair execution of the program terminates, nothing
  faulting, the arguments end as launched, and the result array ends at the contents the last boundary of the run has
  for it — which `Fold.result` reads as the network of the arguments. The segments, their thread states and the launch
  are the frame's own (the run is the frame's, re-posted with one more buffer read off the last thread state).
-/
import proofs.«157134_j64020782514491_1_alg».proof.Proof.Gen.KernelIdeal.Frame
import proofs.«157134_j64020782514491_1_alg».proof.Proof.KFold

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section AnyInstance
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last thread state beside the arguments. -/
theorem run_result : θ_run defs (onTc (τ := τ) (main (F := F))) ⟨m, fun _ => 0, ρ⟩ (fun r => ∀ c : Dev nD,
      r.2.mem ((c.tc : Thread nD τ).loc main_v109) = W13 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v109 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end AnyInstance

/-- At the ideal values the result array ends holding the network of the arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v109)
        = Cert.Net.net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (Cert.KernelIdeal.Fold.result m ρ c), (h c).2⟩) (run_result m ρ)

end Cert.KernelIdeal.RunValue

end
-- ==== Proof.RefOps.lean ====
/-
  The idealized reference's 144 host operations cut into seven stretches: the edge ends and the ingredients of the weights'
  factor; the selection that makes the factor; then per layer the dense product, the aggregation and the bias, and (after the
  first two layers) the max(., 0).
-/
import proofs.«157134_j64020782514491_1_alg».proof.Proof.RefRun

set_option maxRecDepth 16384

noncomputable section

namespace Cert.ReferenceIdeal.Fold

open Idealize.ShloMosaic Idealize.ShloMosaic.TcCoe Idealize.SL.Sem Idealize.ShloMosaic.StableHlo
open Cert.ReferenceIdeal Cert.ReferenceIdeal.Gen Cert.ReferenceIdeal.ValueP

section Lists
variable {F : FTy → Type} [FloatOps F]

/-- Operations 0 … 17: the edge ends, the degrees, where they are positive, their inverse square roots. -/
abbrev opsEdge : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- Operations 18 … 20: the factor is the inverse square root where the degree is positive, else 0. -/
abbrev opsWhere : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 21 … 59: the first layer. -/
abbrev opsLayer1 : List (HloOp τ sig (Elt F)) :=
  [ binary main_arg0 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    unary main_v30 main_v31 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v15 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v39 (broadcastInDim S850000x128 ![0, 1] bcast_S850000x1_S850000x128_0_1 : (⟨S850000x1, .f32⟩ : BufTy).Contents (Elt F) → (⟨S850000x128, .f32⟩ : BufTy).Contents (Elt F)),
    binary main_v39 main_v38 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- Operations 60 … 62: max(., 0). -/
abbrev opsMax1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- Operations 63 … 101: the second layer. -/
abbrev opsLayer2 : List (HloOp τ sig (Elt F)) :=
  [ binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v14 main_v54 main_v55 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_11 (constantI S_ 32 0#32),
    unary main_c_11 main_v56 (broadcastInDim S850000 ![] bcast_S_S850000 : (⟨S_, .i32⟩ : BufTy).Contents (Elt F) → (⟨S850000, .i32⟩ : BufTy).Contents (Elt F)),
    binary main_v6 main_v56 main_v57 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v58 (broadcastInDim S850000 ![] bcast_S_S850000 : (⟨S_, .i32⟩ : BufTy).Contents (Elt F) → (⟨S850000, .i32⟩ : BufTy).Contents (Elt F)),
    binary main_v6 main_v58 main_v59 (addi : (⟨S850000, .i32⟩ : BufTy).Contents (Elt F) → (⟨S850000, .i32⟩ : BufTy).Contents (Elt F) → (⟨S850000, .i32⟩ : BufTy).Contents (Elt F)),
    ternary main_v57 main_v59 main_v6 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v60 main_v61 (broadcastInDim S850000x1 ![0] bcast_S850000_S850000x1_0 : (⟨S850000, .i32⟩ : BufTy).Contents (Elt F) → (⟨S850000x1, .i32⟩ : BufTy).Contents (Elt F)),
    binary main_v14 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v55 main_v62 main_v63 (mulf : (⟨S850000, .f32⟩ : BufTy).Contents (Elt F) → (⟨S850000, .f32⟩ : BufTy).Contents (Elt F) → (⟨S850000, .f32⟩ : BufTy).Contents (Elt F)),
    unary main_v63 main_v64 (broadcastInDim S850000x1 ![0] bcast_S850000_S850000x1_0 : (⟨S850000, .f32⟩ : BufTy).Contents (Elt F) → (⟨S850000x1, .f32⟩ : BufTy).Contents (Elt F)),
    nullary main_c_13 (constantI S_ 32 0#32),
    unary main_c_13 main_v65 (broadcastInDim S850000 ![] bcast_S_S850000 : (⟨S_, .i32⟩ : BufTy).Contents (Elt F) → (⟨S850000, .i32⟩ : BufTy).Contents (Elt F)),
    binary main_v3 main_v65 main_v66 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v67 (broadcastInDim S850000 ![] bcast_S_S850000 : (⟨S_, .i32⟩ : BufTy).Contents (Elt F) → (⟨S850000, .i32⟩ : BufTy).Contents (Elt F)),
    binary main_v3 main_v67 main_v68 (addi : (⟨S850000, .i32⟩ : BufTy).Contents (Elt F) → (⟨S850000, .i32⟩ : BufTy).Contents (Elt F) → (⟨S850000, .i32⟩ : BufTy).Contents (Elt F)),
    ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v69 main_v70 (broadcastInDim S850000x1 ![0] bcast_S850000_S850000x1_0 : (⟨S850000, .i32⟩ : BufTy).Contents (Elt F) → (⟨S850000x1, .i32⟩ : BufTy).Contents (Elt F)),
    binary main_v48 main_v70 main_v71 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v64 main_v72 (broadcastInDim S850000x128 ![0, 1] bcast_S850000x1_S850000x128_0_1 : (⟨S850000x1, .f32⟩ : BufTy).Contents (Elt F) → (⟨S850000x128, .f32⟩ : BufTy).Contents (Elt F)),
    binary main_v72 main_v71 main_v73 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v74 (broadcastInDim S50000x128 ![] bcast_S_S50000x128 : (⟨S_, .f32⟩ : BufTy).Contents (Elt F) → (⟨S50000x128, .f32⟩ : BufTy).Contents (Elt F)),
    unary main_v6 main_v75 (broadcastInDim S850000x1 ![0] bcast_S850000_S850000x1_0 : (⟨S850000, .i32⟩ : BufTy).Contents (Elt F) → (⟨S850000x1, .i32⟩ : BufTy).Contents (Elt F)),
    ternary main_v74 main_v75 main_v73 main_v76 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)) ]

/-- Operations 102 … 104: max(., 0). -/
abbrev opsMax2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v79) (TRef.of (T := ⟨S50000x128, .f32⟩) main_call2_v0) (TRef.of (T := ⟨S50000x128, .f32⟩) main_v80) maximumf ]

/-- Operations 105 … 143: the third layer. -/
abbrev opsLayer3 : List (HloOp τ sig (Elt F)) :=
  [ binary main_v80 main_arg6 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_16 (constantI S_ 32 0#32),
    unary main_c_16 main_v82 (broadcastInDim S850000 ![] bcast_S_S850000 : (⟨S_, .i32⟩ : BufTy).Contents (Elt F) → (⟨S850000, .i32⟩ : BufTy).Contents (Elt F)),
    binary main_v3 main_v82 main_v83 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v84 (broadcastInDim S850000 ![] bcast_S_S850000 : (⟨S_, .i32⟩ : BufTy).Contents (Elt F) → (⟨S850000, .i32⟩ : BufTy).Contents (Elt F)),
    binary main_v3 main_v84 main_v85 (addi : (⟨S850000, .i32⟩ : BufTy).Contents (Elt F) → (⟨S850000, .i32⟩ : BufTy).Contents (Elt F) → (⟨S850000, .i32⟩ : BufTy).Contents (Elt F)),
    ternary main_v83 main_v85 main_v3 main_v86 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v86 main_v87 (broadcastInDim S850000x1 ![0] bcast_S850000_S850000x1_0 : (⟨S850000, .i32⟩ : BufTy).Contents (Elt F) → (⟨S850000x1, .i32⟩ : BufTy).Contents (Elt F)),
    binary main_v14 main_v87 main_v88 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_18 (constantI S_ 32 0#32),
    unary main_c_18 main_v89 (broadcastInDim S850000 ![] bcast_S_S850000 : (⟨S_, .i32⟩ : BufTy).Contents (Elt F) → (⟨S850000, .i32⟩ : BufTy).Contents (Elt F)),
    binary main_v6 main_v89 main_v90 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v91 (broadcastInDim S850000 ![] bcast_S_S850000 : (⟨S_, .i32⟩ : BufTy).Contents (Elt F) → (⟨S850000, .i32⟩ : BufTy).Contents (Elt F)),
    binary main_v6 main_v91 main_v92 (addi : (⟨S850000, .i32⟩ : BufTy).Contents (Elt F) → (⟨S850000, .i32⟩ : BufTy).Contents (Elt F) → (⟨S850000, .i32⟩ : BufTy).Contents (Elt F)),
    ternary main_v90 main_v92 main_v6 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v93 main_v94 (broadcastInDim S850000x1 ![0] bcast_S850000_S850000x1_0 : (⟨S850000, .i32⟩ : BufTy).Contents (Elt F) → (⟨S850000x1, .i32⟩ : BufTy).Contents (Elt F)),
    binary main_v14 main_v94 main_v95 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v88 main_v95 main_v96 (mulf : (⟨S850000, .f32⟩ : BufTy).Contents (Elt F) → (⟨S850000, .f32⟩ : BufTy).Contents (Elt F) → (⟨S850000, .f32⟩ : BufTy).Contents (Elt F)),
    unary main_v96 main_v97 (broadcastInDim S850000x1 ![0] bcast_S850000_S850000x1_0 : (⟨S850000, .f32⟩ : BufTy).Contents (Elt F) → (⟨S850000x1, .f32⟩ : BufTy).Contents (Elt F)),
    nullary main_c_20 (constantI S_ 32 0#32),
    unary main_c_20 main_v98 (broadcastInDim S850000 ![] bcast_S_S850000 : (⟨S_, .i32⟩ : BufTy).Contents (Elt F) → (⟨S850000, .i32⟩ : BufTy).Contents (Elt F)),
    binary main_v3 main_v98 main_v99 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v100 (broadcastInDim S850000 ![] bcast_S_S850000 : (⟨S_, .i32⟩ : BufTy).Contents (Elt F) → (⟨S850000, .i32⟩ : BufTy).Contents (Elt F)),
    binary main_v3 main_v100 main_v101 (addi : (⟨S850000, .i32⟩ : BufTy).Contents (Elt F) → (⟨S850000, .i32⟩ : BufTy).Contents (Elt F) → (⟨S850000, .i32⟩ : BufTy).Contents (Elt F)),
    ternary main_v99 main_v101 main_v3 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v102 main_v103 (broadcastInDim S850000x1 ![0] bcast_S850000_S850000x1_0 : (⟨S850000, .i32⟩ : BufTy).Contents (Elt F) → (⟨S850000x1, .i32⟩ : BufTy).Contents (Elt F)),
    binary main_v81 main_v103 main_v104 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v97 main_v105 (broadcastInDim S850000x128 ![0, 1] bcast_S850000x1_S850000x128_0_1 : (⟨S850000x1, .f32⟩ : BufTy).Contents (Elt F) → (⟨S850000x128, .f32⟩ : BufTy).Contents (Elt F)),
    binary main_v105 main_v104 main_v106 (mulf : (⟨S850000x128, .f32⟩ : BufTy).Contents (Elt F) → (⟨S850000x128, .f32⟩ : BufTy).Contents (Elt F) → (⟨S850000x128, .f32⟩ : BufTy).Contents (Elt F)),
    nullary main_cst_22 (constant S_ .f32 0x00000000#32),
    unary main_cst_22 main_v107 (broadcastInDim S50000x128 ![] bcast_S_S50000x128 : (⟨S_, .f32⟩ : BufTy).Contents (Elt F) → (⟨S50000x128, .f32⟩ : BufTy).Contents (Elt F)),
    unary main_v6 main_v108 (broadcastInDim S850000x1 ![0] bcast_S850000_S850000x1_0 : (⟨S850000, .i32⟩ : BufTy).Contents (Elt F) → (⟨S850000x1, .i32⟩ : BufTy).Contents (Elt F)),
    ternary main_v107 main_v108 main_v106 main_v109 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg7 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v109 main_v111 main_v112 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
theorem ops_cut : (ops : List (HloOp τ sig (Elt F)))
    = opsEdge ++ (opsWhere ++ (opsLayer1 ++ (opsMax1 ++ (opsLayer2 ++ (opsMax2 ++ opsLayer3))))) := rfl

end Lists

end Cert.ReferenceIdeal.Fold

end
-- ==== Proof.RefEdge.lean ====
/-
  The reference's first two stretches, read from any starting contents: they leave the edge ends `src`, `dst` and the factor
  `dinv` of the edge table they start with, and write no argument.
-/
import proofs.«157134_j64020782514491_1_alg».proof.Proof.RefOps
import proofs.«157134_j64020782514491_1_alg».proof.Proof.Net

set_option maxRecDepth 16384

noncomputable section

namespace Cert.ReferenceIdeal.Fold

open Idealize.ShloMosaic Idealize.ShloMosaic.TcCoe Idealize.SL.Sem Idealize.ShloMosaic.StableHlo
open Cert.ReferenceIdeal Cert.ReferenceIdeal.Gen Cert.ReferenceIdeal.ValueP

variable (W : Valuation τ sig (Elt Ideal))

/-! ## The edge ends and the ingredients of the factor -/

set_option maxHeartbeats 4000000 in
theorem edge_src : after (opsEdge (F := Ideal)) W (Proc.devRef .tc main_v3) = Cert.Net.src (W (Proc.devRef .tc main_arg1)) := by
  after_results
  rfl
set_option maxHeartbeats 4000000 in
theorem edge_dst : after (opsEdge (F := Ideal)) W (Proc.devRef .tc main_v6) = Cert.Net.dst (W (Proc.devRef .tc main_arg1)) := by
  after_results
  rfl
set_option maxHeartbeats 4000000 in
theorem edge_pos : after (opsEdge (F := Ideal)) W (Proc.devRef .tc main_v12)
    = cmpf .ogt (Cert.Net.deg (Cert.Net.dst (W (Proc.devRef .tc main_arg1)))) (broadcastInDim S50000 ![] bcast_S_S50000 (constant S_ .f32 0x00000000#32)) := by
  after_results
  rfl
set_option maxHeartbeats 4000000 in
theorem edge_rsqrt : after (opsEdge (F := Ideal)) W (Proc.devRef .tc main_v13) = Host.rsqrt (Cert.Net.deg (Cert.Net.dst (W (Proc.devRef .tc main_arg1)))) := by
  after_results
  rfl
theorem edge_zero : after (opsEdge (F := Ideal)) W (Proc.devRef .tc main_cst_2) = constant (F := Ideal) S_ .f32 0x00000000#32 := by
  after_results_simp <;> rfl
theorem keep_opsEdge_main_arg0 : after (opsEdge (F := Ideal)) W (Proc.devRef .tc main_arg0) = W (Proc.devRef .tc main_arg0) := by after_results_simp <;> rfl
theorem keep_opsEdge_main_arg2 : after (opsEdge (F := Ideal)) W (Proc.devRef .tc main_arg2) = W (Proc.devRef .tc main_arg2) := by after_results_simp <;> rfl
theorem keep_opsEdge_main_arg3 : after (opsEdge (F := Ideal)) W (Proc.devRef .tc main_arg3) = W (Proc.devRef .tc main_arg3) := by after_results_simp <;> rfl
theorem keep_opsEdge_main_arg4 : after (opsEdge (F := Ideal)) W (Proc.devRef .tc main_arg4) = W (Proc.devRef .tc main_arg4) := by after_results_simp <;> rfl
theorem keep_opsEdge_main_arg5 : after (opsEdge (F := Ideal)) W (Proc.devRef .tc main_arg5) = W (Proc.devRef .tc main_arg5) := by after_results_simp <;> rfl
theorem keep_opsEdge_main_arg6 : after (opsEdge (F := Ideal)) W (Proc.devRef .tc main_arg6) = W (Proc.devRef .tc main_arg6) := by after_results_simp <;> rfl
theorem keep_opsEdge_main_arg7 : after (opsEdge (F := Ideal)) W (Proc.devRef .tc main_arg7) = W (Proc.devRef .tc main_arg7) := by after_results_simp <;> rfl

/-! ## The selection -/

theorem where_from : after (opsWhere (F := Ideal)) W (Proc.devRef .tc main_v14)
    = select (W (Proc.devRef .tc main_v12)) (W (Proc.devRef .tc main_v13)) (broadcastInDim S50000 ![] bcast_S_S50000 (W (Proc.devRef .tc main_cst_2))) := by
  after_results
  rfl
theorem keep_opsWhere_main_v3 : after (opsWhere (F := Ideal)) W (Proc.devRef .tc main_v3) = W (Proc.devRef .tc main_v3) := by after_results_simp <;> rfl
theorem keep_opsWhere_main_v6 : after (opsWhere (F := Ideal)) W (Proc.devRef .tc main_v6) = W (Proc.devRef .tc main_v6) := by after_results_simp <;> rfl
theorem keep_opsWhere_main_arg0 : after (opsWhere (F := Ideal)) W (Proc.devRef .tc main_arg0) = W (Proc.devRef .tc main_arg0) := by after_results_simp <;> rfl
theorem keep_opsWhere_main_arg2 : after (opsWhere (F := Ideal)) W (Proc.devRef .tc main_arg2) = W (Proc.devRef .tc main_arg2) := by after_results_simp <;> rfl
theorem keep_opsWhere_main_arg3 : after (opsWhere (F := Ideal)) W (Proc.devRef .tc main_arg3) = W (Proc.devRef .tc main_arg3) := by after_results_simp <;> rfl
theorem keep_opsWhere_main_arg4 : after (opsWhere (F := Ideal)) W (Proc.devRef .tc main_arg4) = W (Proc.devRef .tc main_arg4) := by after_results_simp <;> rfl
theorem keep_opsWhere_main_arg5 : after (opsWhere (F := Ideal)) W (Proc.devRef .tc main_arg5) = W (Proc.devRef .tc main_arg5) := by after_results_simp <;> rfl
theorem keep_opsWhere_main_arg6 : after (opsWhere (F := Ideal)) W (Proc.devRef .tc main_arg6) = W (Proc.devRef .tc main_arg6) := by after_results_simp <;> rfl
theorem keep_opsWhere_main_arg7 : after (opsWhere (F := Ideal)) W (Proc.devRef .tc main_arg7) = W (Proc.devRef .tc main_arg7) := by after_results_simp <;> rfl

theorem start_dinv : after (opsWhere (F := Ideal)) (after (opsEdge (F := Ideal)) W) (Proc.devRef .tc main_v14) = Cert.Net.dinv (Cert.Net.dst (W (Proc.devRef .tc main_arg1))) := by
  rw [where_from, edge_pos, edge_rsqrt, edge_zero]
  rfl

end Cert.ReferenceIdeal.Fold

end
-- ==== Proof.RefLayers.lean ====
/-
  The reference's layer stretches, read from any starting contents: each layer stretch leaves one layer (the host's dense
  product, the aggregation along the edges, the host's bias) of the features, weights and edge arrays it starts with, each
  max stretch the features with max(., 0) applied; none writes an edge array or a later layer's argument.
-/
import proofs.«157134_j64020782514491_1_alg».proof.Proof.RefOps
import proofs.«157134_j64020782514491_1_alg».proof.Proof.Net

set_option maxRecDepth 16384

noncomputable section

namespace Cert.ReferenceIdeal.Fold

open Idealize.ShloMosaic Idealize.ShloMosaic.TcCoe Idealize.SL.Sem Idealize.ShloMosaic.StableHlo
open Cert.ReferenceIdeal Cert.ReferenceIdeal.Gen Cert.ReferenceIdeal.ValueP

variable (W : Valuation τ sig (Elt Ideal))

set_option maxHeartbeats 4000000 in
theorem layer1 : after (opsLayer1 (F := Ideal)) W (Proc.devRef .tc main_v46)
    = Cert.Net.layerHost (W (Proc.devRef .tc main_v3)) (W (Proc.devRef .tc main_v6)) (W (Proc.devRef .tc main_v14)) (W (Proc.devRef .tc main_arg0)) (W (Proc.devRef .tc main_arg2)) (W (Proc.devRef .tc main_arg3)) := by
  after_results_simp <;> rfl
theorem keep_opsLayer1_main_v3 : after (opsLayer1 (F := Ideal)) W (Proc.devRef .tc main_v3) = W (Proc.devRef .tc main_v3) := by after_results_simp <;> rfl
theorem keep_opsLayer1_main_v6 : after (opsLayer1 (F := Ideal)) W (Proc.devRef .tc main_v6) = W (Proc.devRef .tc main_v6) := by after_results_simp <;> rfl
theorem keep_opsLayer1_main_v14 : after (opsLayer1 (F := Ideal)) W (Proc.devRef .tc main_v14) = W (Proc.devRef .tc main_v14) := by after_results_simp <;> rfl
theorem keep_opsLayer1_main_arg4 : after (opsLayer1 (F := Ideal)) W (Proc.devRef .tc main_arg4) = W (Proc.devRef .tc main_arg4) := by after_results_simp <;> rfl
theorem keep_opsLayer1_main_arg5 : after (opsLayer1 (F := Ideal)) W (Proc.devRef .tc main_arg5) = W (Proc.devRef .tc main_arg5) := by after_results_simp <;> rfl
theorem keep_opsLayer1_main_arg6 : after (opsLayer1 (F := Ideal)) W (Proc.devRef .tc main_arg6) = W (Proc.devRef .tc main_arg6) := by after_results_simp <;> rfl
theorem keep_opsLayer1_main_arg7 : after (opsLayer1 (F := Ideal)) W (Proc.devRef .tc main_arg7) = W (Proc.devRef .tc main_arg7) := by after_results_simp <;> rfl

theorem max1 : after (opsMax1 (F := Ideal)) W (Proc.devRef .tc main_v47) = Cert.Net.relu (W (Proc.devRef .tc main_v46)) := by
  after_results
  rfl
theorem keep_opsMax1_main_v3 : after (opsMax1 (F := Ideal)) W (Proc.devRef .tc main_v3) = W (Proc.devRef .tc main_v3) := by after_results_simp <;> rfl
theorem keep_opsMax1_main_v6 : after (opsMax1 (F := Ideal)) W (Proc.devRef .tc main_v6) = W (Proc.devRef .tc main_v6) := by after_results_simp <;> rfl
theorem keep_opsMax1_main_v14 : after (opsMax1 (F := Ideal)) W (Proc.devRef .tc main_v14) = W (Proc.devRef .tc main_v14) := by after_results_simp <;> rfl
theorem keep_opsMax1_main_arg4 : after (opsMax1 (F := Ideal)) W (Proc.devRef .tc main_arg4) = W (Proc.devRef .tc main_arg4) := by after_results_simp <;> rfl
theorem keep_opsMax1_main_arg5 : after (opsMax1 (F := Ideal)) W (Proc.devRef .tc main_arg5) = W (Proc.devRef .tc main_arg5) := by after_results_simp <;> rfl
theorem keep_opsMax1_main_arg6 : after (opsMax1 (F := Ideal)) W (Proc.devRef .tc main_arg6) = W (Proc.devRef .tc main_arg6) := by after_results_simp <;> rfl
theorem keep_opsMax1_main_arg7 : after (opsMax1 (F := Ideal)) W (Proc.devRef .tc main_arg7) = W (Proc.devRef .tc main_arg7) := by after_results_simp <;> rfl

set_option maxHeartbeats 4000000 in
theorem layer2 : after (opsLayer2 (F := Ideal)) W (Proc.devRef .tc main_v79)
    = Cert.Net.layerHost (W (Proc.devRef .tc main_v3)) (W (Proc.devRef .tc main_v6)) (W (Proc.devRef .tc main_v14)) (W (Proc.devRef .tc main_v47)) (W (Proc.devRef .tc main_arg4)) (W (Proc.devRef .tc main_arg5)) := by
  after_results_simp <;> rfl
theorem keep_opsLayer2_main_v3 : after (opsLayer2 (F := Ideal)) W (Proc.devRef .tc main_v3) = W (Proc.devRef .tc main_v3) := by after_results_simp <;> rfl
theorem keep_opsLayer2_main_v6 : after (opsLayer2 (F := Ideal)) W (Proc.devRef .tc main_v6) = W (Proc.devRef .tc main_v6) := by after_results_simp <;> rfl
theorem keep_opsLayer2_main_v14 : after (opsLayer2 (F := Ideal)) W (Proc.devRef .tc main_v14) = W (Proc.devRef .tc main_v14) := by after_results_simp <;> rfl
theorem keep_opsLayer2_main_arg6 : after (opsLayer2 (F := Ideal)) W (Proc.devRef .tc main_arg6) = W (Proc.devRef .tc main_arg6) := by after_results_simp <;> rfl
theorem keep_opsLayer2_main_arg7 : after (opsLayer2 (F := Ideal)) W (Proc.devRef .tc main_arg7) = W (Proc.devRef .tc main_arg7) := by after_results_simp <;> rfl

theorem max2 : after (opsMax2 (F := Ideal)) W (Proc.devRef .tc main_v80) = Cert.Net.relu (W (Proc.devRef .tc main_v79)) := by
  after_results
  rfl
theorem keep_opsMax2_main_v3 : after (opsMax2 (F := Ideal)) W (Proc.devRef .tc main_v3) = W (Proc.devRef .tc main_v3) := by after_results_simp <;> rfl
theorem keep_opsMax2_main_v6 : after (opsMax2 (F := Ideal)) W (Proc.devRef .tc main_v6) = W (Proc.devRef .tc main_v6) := by after_results_simp <;> rfl
theorem keep_opsMax2_main_v14 : after (opsMax2 (F := Ideal)) W (Proc.devRef .tc main_v14) = W (Proc.devRef .tc main_v14) := by after_results_simp <;> rfl
theorem keep_opsMax2_main_arg6 : after (opsMax2 (F := Ideal)) W (Proc.devRef .tc main_arg6) = W (Proc.devRef .tc main_arg6) := by after_results_simp <;> rfl
theorem keep_opsMax2_main_arg7 : after (opsMax2 (F := Ideal)) W (Proc.devRef .tc main_arg7) = W (Proc.devRef .tc main_arg7) := by after_results_simp <;> rfl

set_option maxHeartbeats 4000000 in
theorem layer3 : after (opsLayer3 (F := Ideal)) W (Proc.devRef .tc main_v112)
    = Cert.Net.layerHost (W (Proc.devRef .tc main_v3)) (W (Proc.devRef .tc main_v6)) (W (Proc.devRef .tc main_v14)) (W (Proc.devRef .tc main_v80)) (W (Proc.devRef .tc main_arg6)) (W (Proc.devRef .tc main_arg7)) := by
  after_results_simp <;> rfl

end Cert.ReferenceIdeal.Fold

end
-- ==== Proof.LibAfterAppend.lean ====
/-
  Running a list of host operations: the contents after `A ++ B` are the contents after `B`, started from the contents after `A`.
  (Lets a long operation list be cut at any place, the first part's contents then carried as one unknown.)
-/
import Idealize.ShloMosaic.Lib.StableHlo.Run

namespace Idealize.ShloMosaic.StableHlo

variable {τ : Topo} {sig : RefSig} {Val : EltTy → Type}

/-- The fold over an appended list is the fold over the second part of the fold over the first. -/
theorem after_append (A B : List (HloOp τ sig Val)) (M : Valuation τ sig Val) :
    after (A ++ B) M = after B (after A M) := by
  induction A generalizing M with
  | nil => rfl
  | cons a A ih => simp only [List.cons_append, after_cons, ih]

/-- Cut at position `n`: the first `n` operations, then the rest. -/
theorem after_take_drop (n : Nat) (L : List (HloOp τ sig Val)) (M : Valuation τ sig Val) :
    after L M = after (L.drop n) (after (L.take n) M) := by
  rw [← after_append, List.take_append_drop]

end Idealize.ShloMosaic.StableHlo
-- ==== Proof.RefFold.lean ====
/-
  The idealized reference's run, followed from the launch to its result array: the seven stretches composed. No stretch
  writes an argument or, once built, one of the three edge arrays; so the result array holds `Cert.Net.net` of the contents
  the arguments start with.
-/
import proofs.«157134_j64020782514491_1_alg».proof.Proof.RefEdge
import proofs.«157134_j64020782514491_1_alg».proof.Proof.RefLayers
import proofs.«157134_j64020782514491_1_alg».proof.Proof.LibAfterAppend

set_option maxRecDepth 16384

noncomputable section

namespace Cert.ReferenceIdeal.Fold

open Idealize.ShloMosaic Idealize.ShloMosaic.TcCoe Idealize.SL.Sem Idealize.ShloMosaic.StableHlo
open Cert.ReferenceIdeal Cert.ReferenceIdeal.Gen Cert.ReferenceIdeal.ValueP

variable (W : Valuation τ sig (Elt Ideal))

/-- The reference's result array is the network of the contents its arguments start with. -/
theorem result : after (ops (F := Ideal)) W (Proc.devRef .tc main_v112)
    = Cert.Net.net (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) (W (Proc.devRef .tc main_arg7)) := by
  rw [ops_cut, after_append, after_append, after_append, after_append, after_append, after_append]
  rw [layer3]
  rw [keep_opsMax2_main_v3, keep_opsMax2_main_v6, keep_opsMax2_main_v14, max2, keep_opsMax2_main_arg6, keep_opsMax2_main_arg7]
  rw [keep_opsLayer2_main_v3, keep_opsLayer2_main_v6, keep_opsLayer2_main_v14, layer2, keep_opsLayer2_main_arg6, keep_opsLayer2_main_arg7]
  rw [keep_opsMax1_main_v3, keep_opsMax1_main_v6, keep_opsMax1_main_v14, max1, keep_opsMax1_main_arg4, keep_opsMax1_main_arg5, keep_opsMax1_main_arg6, keep_opsMax1_main_arg7]
  rw [keep_opsLayer1_main_v3, keep_opsLayer1_main_v6, keep_opsLayer1_main_v14, layer1, keep_opsLayer1_main_arg4, keep_opsLayer1_main_arg5, keep_opsLayer1_main_arg6, keep_opsLayer1_main_arg7]
  rw [keep_opsWhere_main_v3, keep_opsWhere_main_v6, start_dinv, keep_opsWhere_main_arg0, keep_opsWhere_main_arg2, keep_opsWhere_main_arg3, keep_opsWhere_main_arg4, keep_opsWhere_main_arg5, keep_opsWhere_main_arg6, keep_opsWhere_main_arg7]
  rw [edge_src, edge_dst, keep_opsEdge_main_arg0, keep_opsEdge_main_arg2, keep_opsEdge_main_arg3, keep_opsEdge_main_arg4, keep_opsEdge_main_arg5, keep_opsEdge_main_arg6, keep_opsEdge_main_arg7]
  simp only [Cert.Net.layerHost_eq_layer]
  rfl

end Cert.ReferenceIdeal.Fold

end
-- ==== Proof.lean ====
/-
  Three graph-convolution layers on 50000 nodes and 850000 edges (800000 given, plus a loop at every node):
  each layer maps node features h to  A (h W) + b,  where A adds, into the row of an edge's target, the row of its source
  scaled by deg(source)^(-1/2) deg(target)^(-1/2); max(., 0) sits between the layers.
  The kernel program computes h W in a kernel region (ten blocks of 5000 rows, operands rounded to bf16, products summed
  on the matrix unit) and adds b in another region (the bias as a 1 x 128 row repeated down each block); the aggregation
  A and the max are host operations. The reference does everything with host operations. Over the extended reals the rounding
  is the identity, the matrix unit's sum and the host's contraction are the same sum over k < 128, and the two ways of
  adding the bias agree entry by entry; the aggregation is literally the same operations on both sides. So both result
  arrays hold one function of the arguments, `Cert.Net.net`: the kernel's by following its run through its six regions
  (Proof/KFold.lean, Proof/KRun.lean), the reference's by following its operations (Proof/RefFold.lean). No law that
  needs finite inputs is used, so the precondition is not opened. The ideal pass rewrote nothing, so `preserves` is trivial.
-/
import proofs.«157134_j64020782514491_1_alg».proof.Defs
import proofs.«157134_j64020782514491_1_alg».proof.Proof.Gen.Kernel
import proofs.«157134_j64020782514491_1_alg».proof.Proof.Gen.Kernel.Skeleton
import proofs.«157134_j64020782514491_1_alg».proof.Proof.Gen.Kernel.Launch
import proofs.«157134_j64020782514491_1_alg».proof.Proof.Gen.Kernel.Points
import proofs.«157134_j64020782514491_1_alg».proof.Proof.Gen.Kernel.Frame
import proofs.«157134_j64020782514491_1_alg».proof.Proof.Gen.KernelIdeal
import proofs.«157134_j64020782514491_1_alg».proof.Proof.Gen.KernelIdeal.Skeleton
import proofs.«157134_j64020782514491_1_alg».proof.Proof.Gen.KernelIdeal.Launch
import proofs.«157134_j64020782514491_1_alg».proof.Proof.Gen.KernelIdeal.Points
import proofs.«157134_j64020782514491_1_alg».proof.Proof.Gen.KernelIdeal.Frame
import proofs.«157134_j64020782514491_1_alg».proof.Proof.Gen.ReferenceIdeal
import proofs.«157134_j64020782514491_1_alg».proof.Proof.Gen.Pre_finite_inputs
import proofs.«157134_j64020782514491_1_alg».proof.Proof.KRun
import proofs.«157134_j64020782514491_1_alg».proof.Proof.RefFold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the network of their arguments in the result array, and the arguments agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.Fold.result _).trans ?_
  show Cert.Net.net (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
